-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x128 : Shape := ⟨2, ![65536, 128]⟩
abbrev S65536 : Shape := ⟨1, ![65536]⟩
abbrev S512x64 : Shape := ⟨2, ![512, 64]⟩
abbrev S512 : Shape := ⟨1, ![512]⟩
abbrev S512x128 : Shape := ⟨2, ![512, 128]⟩
abbrev S64x128 : Shape := ⟨2, ![64, 128]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536 : S_.BroadcastsInDim S65536 (![] : Fin 0 → Fin S65536.rank)
  reducesTo_S65536_S_d0 : S65536.ReducesTo [0] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S512 .f32) (main_arg8 : FVec F S64x128 .f32) (main_arg9 : FVec F S64 .f32) (main_arg10 : FVec F S128x64 .f32) (main_arg11 : FVec F S128 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg10
  let main_cst_18 : FVec F S_ .f32 := constant S_ .f32 0x7F800000#32
  let main_v50 : FVec F S128x64 .f32 := broadcastInDim S128x64 ![] bcast_S_S128x64 main_cst_18
  fn_part3 (F := F) main_arg11 main_v48 main_v49 main_v50

def fn_part1 {F : FTy → Type} [FloatOps F] (main_arg4 : FVec F S512x64 .f32) (main_arg5 : FVec F S512 .f32) (main_arg6 : FVec F S512x128 .f32) (main_arg7 : FVec F S512 .f32) (main_arg8 : FVec F S64x128 .f32) (main_arg9 : FVec F S64 .f32) (main_arg10 : FVec F S128x64 .f32) (main_arg11 : FVec F S128 .f32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_v19 : FVec F S512x64 .f32 := Host.absf main_arg4
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x64 .f32) (main_arg1 : FVec F S65536x128 .f32) (main_arg2 : FVec F S65536x128 .f32) (main_arg3 : FVec F S65536 .f32) (main_arg4 : FVec F S512x64 .f32) (main_arg5 : FVec F S512 .f32) (main_arg6 : FVec F S512x128 .f32) (main_arg7 : FVec F S512 .f32) (main_arg8 : FVec F S64x128 .f32) (main_arg9 : FVec F S64 .f32) (main_arg10 : FVec F S128x64 .f32) (main_arg11 : FVec F S128 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg4 main_arg5 main_arg6 main_arg7 main_arg8 main_arg9 main_arg10 main_arg11 main_v13 main_v16
-- ==== Kernel.lean ====
abbrev S65536x64 : Shape := ⟨2, ![65536, 64]⟩
abbrev S65536x128 : Shape := ⟨2, ![65536, 128]⟩
abbrev S65536 : Shape := ⟨1, ![65536]⟩
abbrev S512x64 : Shape := ⟨2, ![512, 64]⟩
abbrev S512 : Shape := ⟨1, ![512]⟩
abbrev S512x128 : Shape := ⟨2, ![512, 128]⟩
abbrev S64x128 : Shape := ⟨2, ![64, 128]⟩
abbrev S64 : Shape := ⟨1, ![64]⟩
abbrev S128x64 : Shape := ⟨2, ![128, 64]⟩
abbrev S128 : Shape := ⟨1, ![128]⟩
abbrev S512x192 : Shape := ⟨2, ![512, 192]⟩
abbrev S192x512 : Shape := ⟨2, ![192, 512]⟩
abbrev S1x512 : Shape := ⟨2, ![1, 512]⟩
abbrev S1x64 : Shape := ⟨2, ![1, 64]⟩
abbrev S1x128 : Shape := ⟨2, ![1, 128]⟩
abbrev S65536x1 : Shape := ⟨2, ![65536, 1]⟩
abbrev S2048x64 : Shape := ⟨2, ![2048, 64]⟩
abbrev S2048x128 : Shape := ⟨2, ![2048, 128]⟩
abbrev S2048x1 : Shape := ⟨2, ![2048, 1]⟩
abbrev S2048x192 : Shape := ⟨2, ![2048, 192]⟩
abbrev S2048x512 : Shape := ⟨2, ![2048, 512]⟩

abbrev nBuf : Space → Nat
  | .hbm => 26
  | .vmem => 18
  | .smem => 0
  | _ => 0

abbrev bufTy : (tb : Table) → Fin (tcTables nBuf tb) → BufTy
  | .hbm, ⟨0, _⟩ => ⟨S65536x64, .f32⟩
  | .hbm, ⟨1, _⟩ => ⟨S65536x128, .f32⟩
  | .hbm, ⟨2, _⟩ => ⟨S65536x128, .f32⟩
  | .hbm, ⟨3, _⟩ => ⟨S65536, .f32⟩
  | .hbm, ⟨4, _⟩ => ⟨S512x64, .f32⟩
  | .hbm, ⟨5, _⟩ => ⟨S512, .f32⟩
  | .hbm, ⟨6, _⟩ => ⟨S512x128, .f32⟩
  | .hbm, ⟨7, _⟩ => ⟨S512, .f32⟩
  | .hbm, ⟨8, _⟩ => ⟨S64x128, .f32⟩
  | .hbm, ⟨9, _⟩ => ⟨S64, .f32⟩
  | .hbm, ⟨10, _⟩ => ⟨S128x64, .f32⟩
  | .hbm, ⟨11, _⟩ => ⟨S128, .f32⟩
  | .hbm, ⟨12, _⟩ => ⟨S512x192, .f32⟩
  | .hbm, ⟨13, _⟩ => ⟨S192x512, .f32⟩
  | .hbm, ⟨14, _⟩ => ⟨S192x512, .bf16⟩
  | .hbm, ⟨15, _⟩ => ⟨S512, .f32⟩
  | .hbm, ⟨16, _⟩ => ⟨S1x512, .f32⟩
  | .hbm, ⟨17, _⟩ => ⟨S128x64, .f32⟩
  | .hbm, ⟨18, _⟩ => ⟨S128x64, .bf16⟩
  | .hbm, ⟨19, _⟩ => ⟨S64x128, .f32⟩
  | .hbm, ⟨20, _⟩ => ⟨S64x128, .bf16⟩
  | .hbm, ⟨21, _⟩ => ⟨S1x64, .f32⟩
  | .hbm, ⟨22, _⟩ => ⟨S1x128, .f32⟩
  | .hbm, ⟨23, _⟩ => ⟨S65536x1, .f32⟩
  | .hbm, ⟨24, _⟩ => ⟨S65536x128, .f32⟩
  | .hbm, ⟨25, _⟩ => ⟨S65536x128, .f32⟩
  | .local _ .vmem, ⟨0, _⟩ => ⟨S2048x64, .f32⟩
  | .local _ .vmem, ⟨1, _⟩ => ⟨S2048x64, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x1, .f32⟩
  | .local _ .vmem, ⟨7, _⟩ => ⟨S2048x1, .f32⟩
  | .local _ .vmem, ⟨8, _⟩ => ⟨S192x512, .bf16⟩
  | .local _ .vmem, ⟨9, _⟩ => ⟨S1x512, .f32⟩
  | .local _ .vmem, ⟨10, _⟩ => ⟨S128x64, .bf16⟩
  | .local _ .vmem, ⟨11, _⟩ => ⟨S1x64, .f32⟩
  | .local _ .vmem, ⟨12, _⟩ => ⟨S64x128, .bf16⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S512x64_S512x128_S512x192_d1 : Shape.Concatenates [S512x64, S512x128] S512x192 1
  transposes_S512x192_S192x512_1_0 : S512x192.Transposes [1, 0] S192x512
  bitsLt_bf16_f32 : FTy.bits .bf16 < FTy.bits .f32
  shapeCasts_S512_S1x512 : S512.ShapeCasts S1x512
  transposes_S64x128_S128x64_1_0 : S64x128.Transposes [1, 0] S128x64
  transposes_S128x64_S64x128_1_0 : S128x64.Transposes [1, 0] S64x128
  shapeCasts_S64_S1x64 : S64.ShapeCasts S1x64
  shapeCasts_S128_S1x128 : S128.ShapeCasts S1x128
  shapeCasts_S65536_S65536x1 : S65536.ShapeCasts S65536x1
  inb_S2048x64_S2048x64_0_0 : ∀ a, (![0, 0] : Fin 2 → Nat) a + S2048x64.size a ≤ S2048x64.size a
  h_S2048x64 : 0 < S2048x64.numel
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S192x512_S192x512_0_0 : ∀ a, (![0, 0] : Fin 2 → Nat) a + S192x512.size a ≤ S192x512.size a
  h_S192x512 : 0 < S192x512.numel
  shapeCasts_S192x512_S192x512 : S192x512.ShapeCasts S192x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S2048x64_S2048x128_S2048x192_d1 : Shape.Concatenates [S2048x64, S2048x128] S2048x192 1
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  broadcasts_S1x64_S2048x64 : S1x64.Broadcasts S2048x64
  broadcasts_S1x128_S2048x128 : S1x128.Broadcasts S2048x128
  broadcasts_S2048x1_S2048x128 : S2048x1.Broadcasts S2048x128
  dot_S2048x192_S192x512_S2048x512_1_0_0_1_n_n_wf : DotDims.WF S2048x192 S192x512 S2048x512 [1] [0] [0] [1] [] []
  dot_S2048x128_S128x64_S2048x64_1_0_0_1_n_n_wf : DotDims.WF S2048x128 S128x64 S2048x64 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S65536x1.size a
  hwx0_3 : ∀ i : grid0.Coords, EltTy.bits .f32 = 32 ∨ (Rect.block (s := S65536x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x512.size a ≤ S192x512.size a
  hwx0_4 : ∀ i : grid0.Coords, EltTy.bits .bf16 = 32 ∨ (Rect.block (s := S192x512) S192x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .bf16 = 32 ∨ (Rect.block (s := S64x128) S64x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S65536x128.size a
  hwx0_10 : ∀ i : grid0.Coords, EltTy.bits .f32 = 32 ∨ (Rect.block (s := S65536x128) S2048x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S65536x128.size a
  hwx0_11 : ∀ i : grid0.Coords, EltTy.bits .f32 = 32 ∨ (Rect.block (s := S65536x128) S2048x128.size (cc0_transform_11 i) (hinb0_11 i)).WholeWords (EltTy.packing .f32)

variable [Facts₀]

def dot_S2048x192_S192x512_S2048x512_1_0_0_1_n_n : DotDims S2048x192 S192x512 S2048x512 where
  lhsContracting := [1]
  rhsContracting := [0]
  lhsNonContracting := [0]
  rhsNonContracting := [1]
  lhsBatch := []
  rhsBatch := []
  wf := dot_S2048x192_S192x512_S2048x512_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S192x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S2048x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x128 : Shape := ⟨2, ![65536, 128]⟩
abbrev S65536 : Shape := ⟨1, ![65536]⟩
abbrev S512x64 : Shape := ⟨2, ![512, 64]⟩
abbrev S512 : Shape := ⟨1, ![512]⟩
abbrev S512x128 : Shape := ⟨2, ![512, 128]⟩
abbrev S64x128 : Shape := ⟨2, ![64, 128]⟩
abbrev S64 : Shape := ⟨1, ![64]⟩
abbrev S128x64 : Shape := ⟨2, ![128, 64]⟩
abbrev S128 : Shape := ⟨1, ![128]⟩
abbrev S64x512 : Shape := ⟨2, ![64, 512]⟩
abbrev S65536x512 : Shape := ⟨2, ![65536, 512]⟩
abbrev S1x512 : Shape := ⟨2, ![1, 512]⟩
abbrev S128x512 : Shape := ⟨2, ![128, 512]⟩
abbrev S_ : Shape := ⟨0, ![]⟩
abbrev S65536x1 : Shape := ⟨2, ![65536, 1]⟩
abbrev S1x64 : Shape := ⟨2, ![1, 64]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S65536x64, .f32⟩
  | 1 => ⟨S65536x128, .f32⟩
  | 2 => ⟨S65536x128, .f32⟩
  | 3 => ⟨S65536, .f32⟩
  | 4 => ⟨S512x64, .f32⟩
  | 5 => ⟨S512, .f32⟩
  | 6 => ⟨S512x128, .f32⟩
  | 7 => ⟨S512, .f32⟩
  | 8 => ⟨S64x128, .f32⟩
  | 9 => ⟨S64, .f32⟩
  | 10 => ⟨S128x64, .f32⟩
  | 11 => ⟨S128, .f32⟩
  | 12 => ⟨S64x512, .f32⟩
  | 13 => ⟨S65536x512, .f32⟩
  | 14 => ⟨S1x512, .f32⟩
  | 15 => ⟨S65536x512, .f32⟩
  | 16 => ⟨S65536x512, .f32⟩
  | 17 => ⟨S128x512, .f32⟩
  | 18 => ⟨S65536x512, .f32⟩
  | 19 => ⟨S65536x512, .f32⟩
  | 20 => ⟨S1x512, .f32⟩
  | 21 => ⟨S65536x512, .f32⟩
  | 22 => ⟨S65536x512, .f32⟩
  | 23 => ⟨S65536x128, .f32⟩
  | 24 => ⟨S65536x128, .f32⟩
  | 25 => ⟨S65536x128, .f32⟩
  | 26 => ⟨S65536x128, .f32⟩
  | 27 => ⟨S65536x128, .f32⟩
  | 28 => ⟨S65536x128, .f32⟩
  | 29 => ⟨S_, .f32⟩
  | 30 => ⟨S65536x128, .f32⟩
  | 31 => ⟨S65536x128, .f32⟩
  | 32 => ⟨S_, .f32⟩
  | 33 => ⟨S65536x128, .f32⟩
  | 34 => ⟨S65536x128, .f32⟩
  | 35 => ⟨S65536x128, .f32⟩
  | 36 => ⟨S65536x128, .f32⟩
  | 37 => ⟨S65536x128, .f32⟩
  | 38 => ⟨S_, .f32⟩
  | 39 => ⟨S65536x128, .f32⟩
  | 40 => ⟨S65536x128, .f32⟩
  | 41 => ⟨S_, .f32⟩
  | 42 => ⟨S65536x128, .f32⟩
  | 43 => ⟨S65536x128, .f32⟩
  | 44 => ⟨S65536x128, .f32⟩
  | 45 => ⟨S65536x128, .f32⟩
  | 46 => ⟨S65536x128, .f32⟩
  | 47 => ⟨S65536x128, .f32⟩
  | 48 => ⟨S65536x128, .f32⟩
  | 49 => ⟨S_, .f32⟩
  | 50 => ⟨S65536x128, .f32⟩
  | 51 => ⟨S65536x128, .f32⟩
  | 52 => ⟨S_, .f32⟩
  | 53 => ⟨S65536x128, .f32⟩
  | 54 => ⟨S65536x128, .f32⟩
  | 55 => ⟨S65536x128, .f32⟩
  | 56 => ⟨S65536x128, .f32⟩
  | 57 => ⟨S65536x1, .f32⟩
  | 58 => ⟨S128x64, .f32⟩
  | 59 => ⟨S65536x64, .f32⟩
  | 60 => ⟨S1x64, .f32⟩
  | 61 => ⟨S65536x64, .f32⟩
  | 62 => ⟨S65536x64, .f32⟩
  | 63 => ⟨S65536x64, .f32⟩
  | 64 => ⟨S64x128, .f32⟩
  | 65 => ⟨S65536x128, .f32⟩
  | 66 => ⟨S1x128, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S65536x128, .f32⟩
  | 73 => ⟨S65536x128, .f32⟩
  | 74 => ⟨S65536x128, .f32⟩
  | 75 => ⟨S128x64, .f32⟩
  | 76 => ⟨S65536x64, .f32⟩
  | 77 => ⟨S1x64, .f32⟩
  | 78 => ⟨S65536x64, .f32⟩
  | 79 => ⟨S65536x64, .f32⟩
  | 80 => ⟨S65536x64, .f32⟩
  | 81 => ⟨S64x128, .f32⟩
  | 82 => ⟨S65536x128, .f32⟩
  | 83 => ⟨S1x128, .f32⟩
  | 84 => ⟨S65536x128, .f32⟩
  | 85 => ⟨S65536x128, .f32⟩
  | 86 => ⟨S_, .f32⟩
  | 87 => ⟨S65536x128, .f32⟩
  | 88 => ⟨S65536x128, .f32⟩
  | 89 => ⟨S65536x128, .f32⟩
  | 90 => ⟨S65536x128, .f32⟩
  | 91 => ⟨S65536x128, .f32⟩
  | 92 => ⟨S65536x128, .f32⟩
  | 93 => ⟨S128x64, .f32⟩
  | 94 => ⟨S65536x64, .f32⟩
  | 95 => ⟨S1x64, .f32⟩
  | 96 => ⟨S65536x64, .f32⟩
  | 97 => ⟨S65536x64, .f32⟩
  | 98 => ⟨S65536x64, .f32⟩
  | 99 => ⟨S64x128, .f32⟩
  | 100 => ⟨S65536x128, .f32⟩
  | 101 => ⟨S1x128, .f32⟩
  | 102 => ⟨S65536x128, .f32⟩
  | 103 => ⟨S65536x128, .f32⟩
  | 104 => ⟨S65536x128, .f32⟩
  | 105 => ⟨S65536x128, .f32⟩
  | 106 => ⟨S65536x128, .f32⟩
  | 107 => ⟨S65536x128, .f32⟩
  | 108 => ⟨S65536x128, .f32⟩
  | 109 => ⟨S128x64, .f32⟩
  | 110 => ⟨S65536x64, .f32⟩
  | 111 => ⟨S1x64, .f32⟩
  | 112 => ⟨S65536x64, .f32⟩
  | 113 => ⟨S65536x64, .f32⟩
  | 114 => ⟨S65536x64, .f32⟩
  | 115 => ⟨S64x128, .f32⟩
  | 116 => ⟨S65536x128, .f32⟩
  | 117 => ⟨S1x128, .f32⟩
  | 118 => ⟨S65536x128, .f32⟩
  | 119 => ⟨S65536x128, .f32⟩
  | 120 => ⟨S_, .f32⟩
  | 121 => ⟨S65536x128, .f32⟩
  | 122 => ⟨S65536x128, .f32⟩
  | 123 => ⟨S65536x128, .f32⟩
  | 124 => ⟨S_, .f32⟩
  | 125 => ⟨S65536x128, .f32⟩
  | 126 => ⟨S65536x128, .f32⟩
  | 127 => ⟨S65536x128, .f32⟩
  | _ => ⟨S65536x64, .f32⟩

abbrev hbmTy0_1 (i : Nat) : BufTy := match i % 128 with
  | 0 => ⟨S65536x128, .f32⟩
  | 1 => ⟨S65536x128, .f32⟩
  | 2 => ⟨S65536x128, .f32⟩
  | 3 => ⟨S_, .f32⟩
  | 4 => ⟨S65536x128, .f32⟩
  | 5 => ⟨S65536x128, .f32⟩
  | 6 => ⟨S65536x128, .f32⟩
  | _ => ⟨S65536x64, .f32⟩

abbrev hbmTy (i : Nat) : BufTy := match i / 128 with
  | 0 => hbmTy0_0 i
  | 1 => hbmTy0_1 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_6 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_7 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_8 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_9 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩

abbrev nD : Nat := 1
abbrev τ : Topo := Topo.v7x

variable {F : FTy → Type} [FloatOps F]

class Facts₀ : Prop where
  transposes_S512x64_S64x512_1_0 : S512x64.Transposes [1, 0] S64x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S512x128_S128x512_1_0 : S512x128.Transposes [1, 0] S128x512
  slices_S65536x512_S65536x128_0_0 : S65536x512.Slices ![0, 0] S65536x128
  slices_S65536x512_S65536x128_0_128 : S65536x512.Slices ![0, 128] S65536x128
  slices_S65536x512_S65536x128_0_256 : S65536x512.Slices ![0, 256] S65536x128
  slices_S65536x512_S65536x128_0_384 : S65536x512.Slices ![0, 384] S65536x128
  bcast_S_S65536x128 : S_.BroadcastsInDim S65536x128 (![] : Fin 0 → Fin S65536x128.rank)
  bcast_S65536_S65536x1_0 : S65536.BroadcastsInDim S65536x1 (![0] : Fin 1 → Fin S65536x1.rank)
  transposes_S64x128_S128x64_1_0 : S64x128.Transposes [1, 0] S128x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  transposes_S128x64_S64x128_1_0 : S128x64.Transposes [1, 0] S64x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S65536x1_S65536x128_0_1 : S65536x1.BroadcastsInDim S65536x128 (![0, 1] : Fin 2 → Fin S65536x128.rank)
  dot_S65536x64_S64x512_S65536x512_1_0_0_1_n_n_wf : DotDims.WF S65536x64 S64x512 S65536x512 [1] [0] [0] [1] [] []
  dot_S65536x128_S128x512_S65536x512_1_0_0_1_n_n_wf : DotDims.WF S65536x128 S128x512 S65536x512 [1] [0] [0] [1] [] []
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.LibLogistic.lean ====
/-
  The logistic function on the extended reals, in the two spellings float programs use:
      ½·(tanh(½·v) + 1)      (one transcendental, no division)     and     1 / (1 + e^{-v}),
  with the literals `0.5` and `1.0` as f32 patterns. They are ONE function on every extended real: at +∞ both are 1,
  at −∞ both are 0 (tanh(±∞) = ±1, e^{-∞} = 0, 1/(+∞) = 0), and on the reals it is the identity
  tanh(r/2) = (1 − e^{-r})/(1 + e^{-r}). The second spelling is the ideal instance's own `logistic`.
-/
import Idealize.ShloMosaic.PureOps.Ideal

noncomputable section

namespace Logistic

open Idealize.ShloMosaic

/-! ## The two float literals of the spelling through the hyperbolic tangent -/

/-- The pattern of `0.5`. -/
abbrev cHalf : EReal := Ideal.ofBits .f32 0x3F000000#32
/-- The pattern of `1.0`. -/
abbrev cOne : EReal := Ideal.ofBits .f32 0x3F800000#32

/-- `0.5` denotes the real one half. -/
theorem cHalf_val : cHalf = ((1 / 2 : ℝ) : EReal) := by
  show Ideal.ofBits .f32 0x3F000000#32 = _
  simp [Ideal.ofBits, Ideal.ieee, -EReal.coe_mul]; norm_num

/-- `1.0` denotes one. -/
theorem cOne_val : cOne = 1 := by
  show Ideal.ofBits .f32 0x3F800000#32 = _
  simp [Ideal.ofBits, Ideal.ieee, -EReal.coe_mul]; norm_num

/-! ## The logistic function, twice -/

/-- The logistic function through the hyperbolic tangent: ½·(tanh(½·v) + 1). -/
def sigT (v : EReal) : EReal := cHalf * (Ideal.tanh (cHalf * v) + cOne)

/-- The logistic function through the exponential: 1 / (1 + e^{-v}). -/
def sigE (v : EReal) : EReal := Ideal.div cOne (cOne + Ideal.exp (-v))

/-- On the reals: ½·(tanh(r/2) + 1) = 1/(1 + e^{-r}). With b = e^{-r/2}, tanh(r/2) = (b⁻¹ − b)/(b⁻¹ + b) and
    e^{-r} = b². -/
theorem real_sigmoid (r : ℝ) : (1 / 2 : ℝ) * (Real.tanh ((1 / 2 : ℝ) * r) + 1) = (1 + Real.exp (-r))⁻¹ := by
  have hb : 0 < Real.exp (-((1 / 2 : ℝ) * r)) := Real.exp_pos _
  have hab : Real.exp ((1 / 2 : ℝ) * r) * Real.exp (-((1 / 2 : ℝ) * r)) = 1 := by
    rw [← Real.exp_add, add_neg_cancel, Real.exp_zero]
  have hb2 : Real.exp (-r) = Real.exp (-((1 / 2 : ℝ) * r)) * Real.exp (-((1 / 2 : ℝ) * r)) := by
    rw [← Real.exp_add]; congr 1; ring
  rw [Real.tanh_eq_sinh_div_cosh, Real.sinh_eq, Real.cosh_eq, hb2]
  generalize Real.exp (-((1 / 2 : ℝ) * r)) = b at *
  have ha : Real.exp ((1 / 2 : ℝ) * r) = b⁻¹ := eq_inv_of_mul_eq_one_left hab
  rw [ha]
  have h1 : b ≠ 0 := hb.ne'
  have h2 : (1 + b * b) ≠ 0 := by positivity
  have h3 : b⁻¹ + b ≠ 0 := by positivity
  field_simp
  ring

/-- The two spellings are one function on every extended real. -/
theorem sigT_eq_sigE (v : EReal) : sigT v = sigE v := by
  have hE : sigE v = Ideal.logistic v := by
    unfold sigE; rw [cOne_val]; rfl
  rw [hE]; unfold sigT; rw [cHalf_val, cOne_val]
  induction v using EReal.rec
  · -- −∞: ½·(tanh(−∞) + 1) = ½·(−1 + 1) = 0
    rw [EReal.coe_mul_bot_of_pos (by norm_num), Ideal.tanh_bot, Ideal.logistic_bot]
    have h0 : (-1 : EReal) + 1 = 0 := by
      rw [show (-1 : EReal) = ((-1 : ℝ) : EReal) by norm_num, ← EReal.coe_one, ← EReal.coe_add]; norm_num
    rw [h0, mul_zero]
  · -- a real
    rename_i r
    rw [← EReal.coe_mul, Ideal.tanh_coe, Ideal.logistic_coe, ← EReal.coe_one, ← EReal.coe_add, ← EReal.coe_mul,
      real_sigmoid]
  · -- +∞: ½·(tanh(+∞) + 1) = ½·2 = 1
    rw [EReal.coe_mul_top_of_pos (by norm_num), Ideal.tanh_top, Ideal.logistic_top]
    rw [← EReal.coe_one, ← EReal.coe_add, ← EReal.coe_mul]; norm_num

/-- The spelling through the exponential is the ideal instance's `logistic`. -/
theorem sigE_eq_logistic (v : EReal) : sigE v = Ideal.logistic v := by
  unfold sigE; rw [cOne_val]; rfl

end Logistic

end
-- ==== Proof.Spec.lean ====
/-
  One step of an ODE-LSTM cell on ONE batch row, over the extended reals.

  A row carries an input x ∈ EReal^64, a hidden state h0 ∈ EReal^128, a cell state c0 ∈ EReal^128 and a time span dt.
  The 512 gate pre-activations are an affine function of [x | h0]; the cell update is
      c = σ(f)·c0 + σ(i)·tanh(g),   h = σ(o)·tanh(c),
  and the hidden state is then moved by one step of the 3/8-rule Runge–Kutta scheme for the autonomous field
      F(y) = tanh(y·W1ᵀ + b1)·W2ᵀ + b2:
      k1 = F(h), k2 = F(h + dt·(k1·⅓)), k3 = F(h + dt·(k2 − k1·⅓)), k4 = F(h + dt·(k1 − k2 + k3)),
      h' = h + dt·(k1 + 3·k2 + 3·k3 + k4)·⅛.
  Everything is stated row by row because no row's result depends on another row: that is what lets a result
  computed block of rows by block of rows be compared with one computed on all rows at once.

  Two laws join the two spellings this file knows of:
  * the logistic function as ½·(tanh(½·v) + 1) and as 1/(1 + e^{-v}) — one function on ALL extended reals
    (Proof/LibLogistic.lean: at +∞ both are 1, at −∞ both are 0, on the reals the identity
    tanh(v/2) = (1 − e^{-v})/(1 + e^{-v}));
  * the gate pre-activations as ONE contraction of [x | h0] with [W_ih | W_hh] plus the summed bias, and as the two
    separate contractions with the biases added one after the other: a sum over 192 = 64 + 128 indices split in two,
    and a regrouping of four summands, which addition on the extended reals allows (it is commutative and
    associative; no finiteness is needed).
-/
import proofs.«114038_j40458591928886_2_alg».proof.Proof.LibLogistic
import Idealize.ShloMosaic.PureOps.Ideal
import Mathlib.Algebra.BigOperators.Fin

noncomputable section

namespace Cert.OdeLstm

open Idealize.ShloMosaic
open scoped BigOperators

/-! ## The float literals both programs spell -/

export Logistic (cHalf cOne cHalf_val cOne_val sigT sigE real_sigmoid sigT_eq_sigE)

/-- The pattern of the float nearest to one third: the SAME word in both programs, so its value is never needed. -/
abbrev cThird : EReal := Ideal.ofBits .f32 0x3EAAAAAB#32
/-- The pattern of `3.0`. -/
abbrev cThree : EReal := Ideal.ofBits .f32 0x40400000#32
/-- The pattern of `0.125`. -/
abbrev cEighth : EReal := Ideal.ofBits .f32 0x3E000000#32

/-! ## The gate pre-activations, twice -/

/-- The concatenation [x | h] of a 64-vector and a 128-vector. -/
def catRow (x : Fin 64 → EReal) (h : Fin 128 → EReal) (k : Fin 192) : EReal :=
  if hk : k.val < 64 then x ⟨k.val, hk⟩ else h ⟨k.val - 64, by omega⟩

/-- Gate `j` as ONE contraction of [x | h] with a 192 × 512 matrix, plus one bias. -/
def gateFused (x : Fin 64 → EReal) (h : Fin 128 → EReal) (Wc : Fin 192 → Fin 512 → EReal) (bc : Fin 512 → EReal)
    (j : Fin 512) : EReal :=
  (∑ k : Fin 192, catRow x h k * Wc k j) + bc j

/-- Gate `j` as x·W_ihᵀ + b_ih + h·W_hhᵀ + b_hh, in that order. -/
def gateSplit (x : Fin 64 → EReal) (h : Fin 128 → EReal) (Wih : Fin 512 → Fin 64 → EReal) (bih : Fin 512 → EReal)
    (Whh : Fin 512 → Fin 128 → EReal) (bhh : Fin 512 → EReal) (j : Fin 512) : EReal :=
  (((∑ k : Fin 64, x k * Wih j k) + bih j) + ∑ k : Fin 128, h k * Whh j k) + bhh j

/-- A sum over 192 indices is the sum over the first 64 plus the sum over the last 128. -/
theorem sum_fin192 (f : Fin 192 → EReal) :
    ∑ k, f k = (∑ k : Fin 64, f ⟨k.val, by omega⟩) + ∑ k : Fin 128, f ⟨64 + k.val, by omega⟩ :=
  @Fin.sum_univ_add EReal _ 64 128 f

/-- The fused contraction against [W_ih | W_hh] (row `j` of each, side by side) with the bias b_ih + b_hh is the split
    form: the sum splits at index 64, and the four summands regroup. -/
theorem gateFused_eq_gateSplit (x : Fin 64 → EReal) (h : Fin 128 → EReal) (Wih : Fin 512 → Fin 64 → EReal)
    (bih : Fin 512 → EReal) (Whh : Fin 512 → Fin 128 → EReal) (bhh : Fin 512 → EReal) (j : Fin 512) :
    gateFused x h (fun k j => catRow (Wih j) (Whh j) k) (fun j => bih j + bhh j) j
      = gateSplit x h Wih bih Whh bhh j := by
  unfold gateFused gateSplit
  rw [sum_fin192]
  have e1 : ∀ k : Fin 64, catRow x h ⟨k.val, by omega⟩ * catRow (Wih j) (Whh j) ⟨k.val, by omega⟩ = x k * Wih j k := by
    intro k
    unfold catRow
    rw [dif_pos (show (⟨k.val, by omega⟩ : Fin 192).val < 64 from k.isLt),
      dif_pos (show (⟨k.val, by omega⟩ : Fin 192).val < 64 from k.isLt)]
  have e2 : ∀ k : Fin 128, catRow x h ⟨64 + k.val, by omega⟩ * catRow (Wih j) (Whh j) ⟨64 + k.val, by omega⟩
      = h k * Whh j k := by
    intro k
    unfold catRow
    rw [dif_neg (show ¬ (⟨64 + k.val, by omega⟩ : Fin 192).val < 64 from by show ¬ 64 + k.val < 64; omega),
      dif_neg (show ¬ (⟨64 + k.val, by omega⟩ : Fin 192).val < 64 from by show ¬ 64 + k.val < 64; omega)]
    have hk : (⟨(⟨64 + k.val, by omega⟩ : Fin 192).val - 64, by show 64 + k.val - 64 < 128; omega⟩ : Fin 128) = k :=
      Fin.ext (by show 64 + k.val - 64 = k.val; omega)
    rw [hk]
  rw [Finset.sum_congr rfl (fun k _ => e1 k), Finset.sum_congr rfl (fun k _ => e2 k)]
  rw [add_add_add_comm, ← add_assoc]

/-! ## The cell update -/

/-- Where the four gates sit among the 512 pre-activations: input, forget, cell, output. -/
abbrev gI (q : Fin 128) : Fin 512 := ⟨0 + q.val, by omega⟩
abbrev gF (q : Fin 128) : Fin 512 := ⟨128 + q.val, by omega⟩
abbrev gG (q : Fin 128) : Fin 512 := ⟨256 + q.val, by omega⟩
abbrev gO (q : Fin 128) : Fin 512 := ⟨384 + q.val, by omega⟩

/-- The new cell state c = σ(f)·c0 + σ(i)·tanh(g), for a logistic function `σ` and the pre-activations `G`. -/
def cellC (σ : EReal → EReal) (G : Fin 512 → EReal) (c0 : Fin 128 → EReal) (q : Fin 128) : EReal :=
  σ (G (gF q)) * c0 q + σ (G (gI q)) * Ideal.tanh (G (gG q))

/-- The hidden state before the ODE step, h = σ(o)·tanh(c). -/
def cellH (σ : EReal → EReal) (G : Fin 512 → EReal) (c0 : Fin 128 → EReal) (q : Fin 128) : EReal :=
  σ (G (gO q)) * Ideal.tanh (cellC σ G c0 q)

/-! ## The ODE step -/

/-- The field F(y) = tanh(y·W1ᵀ + b1)·W2ᵀ + b2 at component `q`; `W1 k l` and `W2 q k` are the matrices' entries. -/
def fode (W1 : Fin 64 → Fin 128 → EReal) (b1 : Fin 64 → EReal) (W2 : Fin 128 → Fin 64 → EReal) (b2 : Fin 128 → EReal)
    (y : Fin 128 → EReal) (q : Fin 128) : EReal :=
  (∑ k : Fin 64, Ideal.tanh ((∑ l : Fin 128, y l * W1 k l) + b1 k) * W2 q k) + b2 q

/-- The argument of the second stage, h + dt·(k1·⅓). -/
def stage2 (h k1 : Fin 128 → EReal) (dt : EReal) (l : Fin 128) : EReal := h l + dt * (k1 l * cThird)

/-- The argument of the third stage, h + dt·(k2 − k1·⅓). -/
def stage3 (h k1 k2 : Fin 128 → EReal) (dt : EReal) (l : Fin 128) : EReal := h l + dt * (k2 l - k1 l * cThird)

/-- The last two stages and the combination, from h, k1, k2 and the third stage's argument `s3`:
    k3 = F(s3), k4 = F(h + dt·(k1 − k2 + k3)), h' = h + dt·(k1 + 3·k2 + 3·k3 + k4)·⅛. -/
def rkTail (f : (Fin 128 → EReal) → Fin 128 → EReal) (h k1 k2 s3 : Fin 128 → EReal) (dt : EReal) (q : Fin 128) : EReal :=
  h q + dt * (k1 q + cThree * k2 q + cThree * f s3 q + f (fun l => h l + dt * (k1 l - k2 l + f s3 l)) q) * cEighth

/-- One step of the 3/8-rule from `h` over `dt`. -/
def rk4 (f : (Fin 128 → EReal) → Fin 128 → EReal) (h : Fin 128 → EReal) (dt : EReal) (q : Fin 128) : EReal :=
  rkTail f h (f h) (f (stage2 h (f h) dt)) (stage3 h (f h) (f (stage2 h (f h) dt)) dt) dt q

end Cert.OdeLstm

end
-- ==== Proof.LibRowLayout.lean ====
/-
  Layout operations of matrices read at an index `(p, k)`, in the forms a row-blocked matrix kernel needs: a column
  `[a, 1]` broadcast along its rows to `[a, b]` by a vector broadcast, a vector `[a]` cast to the column `[a, 1]`,
  and two matrices with the same rows set side by side along the column axis, read on the left part and on the right
  part. Each reads the operand at the evident index; stated over generic extents.
-/
import Idealize.ShloMosaic.Lib.Pipeline.Value
import Idealize.ShloMosaic.Lib.ValueIdx

noncomputable section

open Idealize.ShloMosaic Idealize.ShloMosaic.ValueIdx

namespace RowLayout

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- `[x₁ | x₂]` read at a column of the left part is `x₁` there. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : k.val < b₁) :
    concatenate ⟨2, ![a, b]⟩ 1 [⟨⟨2, ![a, b₁]⟩, x₁⟩, ⟨⟨2, ![a, b₂]⟩, x₂⟩] h (ix2 p k) = x₁ (ix2 p ⟨k.val, hk⟩) :=
  concatenate_pair_apply_left 1 x₁ x₂ h (ix2 p k) rfl (ix2 p ⟨k.val, hk⟩) fun c => by
    match c with
    | ⟨0, _⟩ => rfl
    | ⟨1, _⟩ => rfl

/-- `[x₁ | x₂]` read at a column of the right part is `x₂` at that column less the left part's width. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : b₁ ≤ k.val)
    (hk₂ : k.val - b₁ < b₂) :
    concatenate ⟨2, ![a, b]⟩ 1 [⟨⟨2, ![a, b₁]⟩, x₁⟩, ⟨⟨2, ![a, b₂]⟩, x₂⟩] h (ix2 p k) = x₂ (ix2 p ⟨k.val - b₁, hk₂⟩) :=
  concatenate_pair_apply_right 1 x₁ x₂ h (ix2 p k) rfl rfl (ix2 p ⟨k.val - b₁, hk₂⟩)
    (fun c hc => by
      match c with
      | ⟨0, _⟩ => rfl
      | ⟨1, _⟩ => exact absurd rfl hc)
    (by show k.val - b₁ + b₁ = k.val; omega)

end RowLayout

end
-- ==== Proof.KDots.lean ====
/-
  The kernel body's three matrix products read at an index. Each contracts the left operand's columns with the right
  operand's rows into a zero accumulator, so at the ideal values its entry `(p, j)` is the plain sum over `k` of
  `L (p, k) · R (k, j)`: the contraction index of the dimension record is its one coordinate, and the operand indices
  at `(p, j)` and `k` are `(p, k)` and `(k, j)`.
-/
import proofs.«114038_j40458591928886_2_alg».proof.Proof.Gen.KernelIdeal
import Idealize.ShloMosaic.Lib.ValueIdx
import Idealize.ShloMosaic.PureOps.Ideal.Laws

noncomputable section

namespace Cert.KernelIdeal.Rows

open Cert.KernelIdeal Cert.KernelIdeal.Gen Idealize.ShloMosaic Idealize.ShloMosaic.ValueIdx
open scoped BigOperators

/-! ## [2048, 192] × [192, 512]: the gates -/

theorem lhs0_g (i : S2048x512.Idx) (q : dot_S2048x192_S192x512_S2048x512_1_0_0_1_n_n.contr.Idx) : (dot_S2048x192_S192x512_S2048x512_1_0_0_1_n_n.lhsIdx i q 0).val = (i 0).val := by
  unfold DotDims.lhsIdx
  rw [dif_neg (show ¬(0 : Fin S2048x192.rank) ∈ dot_S2048x192_S192x512_S2048x512_1_0_0_1_n_n.lhsBatch by decide), dif_pos (show (0 : Fin S2048x192.rank) ∈ dot_S2048x192_S192x512_S2048x512_1_0_0_1_n_n.lhsNonContracting by decide)]
  rfl
theorem lhs1_g (i : S2048x512.Idx) (q : dot_S2048x192_S192x512_S2048x512_1_0_0_1_n_n.contr.Idx) : (dot_S2048x192_S192x512_S2048x512_1_0_0_1_n_n.lhsIdx i q 1).val = (q ⟨0, by decide⟩).val :=
  dot_S2048x192_S192x512_S2048x512_1_0_0_1_n_n.lhsIdx_val_of_single rfl i q
theorem rhs0_g (i : S2048x512.Idx) (q : dot_S2048x192_S192x512_S2048x512_1_0_0_1_n_n.contr.Idx) : (dot_S2048x192_S192x512_S2048x512_1_0_0_1_n_n.rhsIdx i q 0).val = (q ⟨0, by decide⟩).val :=
  dot_S2048x192_S192x512_S2048x512_1_0_0_1_n_n.rhsIdx_val_of_single rfl i q
theorem rhs1_g (i : S2048x512.Idx) (q : dot_S2048x192_S192x512_S2048x512_1_0_0_1_n_n.contr.Idx) : (dot_S2048x192_S192x512_S2048x512_1_0_0_1_n_n.rhsIdx i q 1).val = (i 1).val := by
  unfold DotDims.rhsIdx
  rw [dif_neg (show ¬(1 : Fin S192x512.rank) ∈ dot_S2048x192_S192x512_S2048x512_1_0_0_1_n_n.rhsBatch by decide), dif_pos (show (1 : Fin S192x512.rank) ∈ dot_S2048x192_S192x512_S2048x512_1_0_0_1_n_n.rhsNonContracting by decide)]
  rfl

/-- The [2048, 192] × [192, 512] product into a zero accumulator at `(p, j)`: the sum over `k` of `L (p, k) · R (k, j)`. -/
theorem matmul_gates_apply (L : FVec Ideal S2048x192 .bf16) (R : FVec Ideal S192x512 .bf16) (p : Fin 2048) (j : Fin 512) :
    matmul dot_S2048x192_S192x512_S2048x512_1_0_0_1_n_n none L R (constant S2048x512 .f32 0x00000000#32) (ix2 p j) = ∑ k : Fin 192, L (ix2 p k) * R (ix2 k j) := by
  simp only [matmul]
  rw [Ideal.matmul_constant_zero_apply, ← Equiv.sum_comp (contrEquiv1 dot_S2048x192_S192x512_S2048x512_1_0_0_1_n_n 192 rfl rfl).symm]
  refine Finset.sum_congr rfl fun k _ => ?_
  have hk := contrEquiv1_symm_val dot_S2048x192_S192x512_S2048x512_1_0_0_1_n_n 192 rfl rfl k
  have el : dot_S2048x192_S192x512_S2048x512_1_0_0_1_n_n.lhsIdx (ix2 p j) ((contrEquiv1 dot_S2048x192_S192x512_S2048x512_1_0_0_1_n_n 192 rfl rfl).symm k) = ix2 p k := funext fun a => Fin.ext (by
    match a with
    | ⟨0, _⟩ => exact lhs0_g _ _
    | ⟨1, _⟩ => exact (lhs1_g _ _).trans hk)
  have er : dot_S2048x192_S192x512_S2048x512_1_0_0_1_n_n.rhsIdx (ix2 p j) ((contrEquiv1 dot_S2048x192_S192x512_S2048x512_1_0_0_1_n_n 192 rfl rfl).symm k) = ix2 k j := funext fun a => Fin.ext (by
    match a with
    | ⟨0, _⟩ => exact (rhs0_g _ _).trans hk
    | ⟨1, _⟩ => exact rhs1_g _ _)
  rw [el, er]

/-! ## [2048, 128] × [128, 64]: into the hidden layer of the field -/

theorem lhs0_a (i : S2048x64.Idx) (q : dot_S2048x128_S128x64_S2048x64_1_0_0_1_n_n.contr.Idx) : (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs1_a (i : S2048x64.Idx) (q : dot_S2048x128_S128x64_S2048x64_1_0_0_1_n_n.contr.Idx) : (dot_S2048x128_S128x64_S2048x64_1_0_0_1_n_n.lhsIdx i q 1).val = (q ⟨0, by decide⟩).val :=
  dot_S2048x128_S128x64_S2048x64_1_0_0_1_n_n.lhsIdx_val_of_single rfl i q
theorem rhs0_a (i : S2048x64.Idx) (q : dot_S2048x128_S128x64_S2048x64_1_0_0_1_n_n.contr.Idx) : (dot_S2048x128_S128x64_S2048x64_1_0_0_1_n_n.rhsIdx i q 0).val = (q ⟨0, by decide⟩).val :=
  dot_S2048x128_S128x64_S2048x64_1_0_0_1_n_n.rhsIdx_val_of_single rfl i q
theorem rhs1_a (i : S2048x64.Idx) (q : dot_S2048x128_S128x64_S2048x64_1_0_0_1_n_n.contr.Idx) : (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The [2048, 128] × [128, 64] product into a zero accumulator at `(p, j)`: the sum over `k` of `L (p, k) · R (k, j)`. -/
theorem matmul_in_apply (L : FVec Ideal S2048x128 .bf16) (R : FVec Ideal S128x64 .bf16) (p : Fin 2048) (j : Fin 64) :
    matmul dot_S2048x128_S128x64_S2048x64_1_0_0_1_n_n none L R (constant S2048x64 .f32 0x00000000#32) (ix2 p j) = ∑ k : Fin 128, L (ix2 p k) * R (ix2 k j) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p j) ((contrEquiv1 dot_S2048x128_S128x64_S2048x64_1_0_0_1_n_n 128 rfl rfl).symm k) = ix2 p k := funext fun a => Fin.ext (by
    match a with
    | ⟨0, _⟩ => exact lhs0_a _ _
    | ⟨1, _⟩ => exact (lhs1_a _ _).trans hk)
  have er : dot_S2048x128_S128x64_S2048x64_1_0_0_1_n_n.rhsIdx (ix2 p j) ((contrEquiv1 dot_S2048x128_S128x64_S2048x64_1_0_0_1_n_n 128 rfl rfl).symm k) = ix2 k j := funext fun a => Fin.ext (by
    match a with
    | ⟨0, _⟩ => exact (rhs0_a _ _).trans hk
    | ⟨1, _⟩ => exact rhs1_a _ _)
  rw [el, er]

/-! ## [2048, 64] × [64, 128]: out of the hidden layer -/

theorem lhs0_b (i : S2048x128.Idx) (q : dot_S2048x64_S64x128_S2048x128_1_0_0_1_n_n.contr.Idx) : (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem lhs1_b (i : S2048x128.Idx) (q : dot_S2048x64_S64x128_S2048x128_1_0_0_1_n_n.contr.Idx) : (dot_S2048x64_S64x128_S2048x128_1_0_0_1_n_n.lhsIdx i q 1).val = (q ⟨0, by decide⟩).val :=
  dot_S2048x64_S64x128_S2048x128_1_0_0_1_n_n.lhsIdx_val_of_single rfl i q
theorem rhs0_b (i : S2048x128.Idx) (q : dot_S2048x64_S64x128_S2048x128_1_0_0_1_n_n.contr.Idx) : (dot_S2048x64_S64x128_S2048x128_1_0_0_1_n_n.rhsIdx i q 0).val = (q ⟨0, by decide⟩).val :=
  dot_S2048x64_S64x128_S2048x128_1_0_0_1_n_n.rhsIdx_val_of_single rfl i q
theorem rhs1_b (i : S2048x128.Idx) (q : dot_S2048x64_S64x128_S2048x128_1_0_0_1_n_n.contr.Idx) : (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- The [2048, 64] × [64, 128] product into a zero accumulator at `(p, j)`: the sum over `k` of `L (p, k) · R (k, j)`. -/
theorem matmul_out_apply (L : FVec Ideal S2048x64 .bf16) (R : FVec Ideal S64x128 .bf16) (p : Fin 2048) (j : Fin 128) :
    matmul dot_S2048x64_S64x128_S2048x128_1_0_0_1_n_n none L R (constant S2048x128 .f32 0x00000000#32) (ix2 p j) = ∑ k : Fin 64, L (ix2 p k) * R (ix2 k j) := by
  simp only [matmul]
  rw [Ideal.matmul_constant_zero_apply, ← Equiv.sum_comp (contrEquiv1 dot_S2048x64_S64x128_S2048x128_1_0_0_1_n_n 64 rfl rfl).symm]
  refine Finset.sum_congr rfl fun k _ => ?_
  have hk := contrEquiv1_symm_val dot_S2048x64_S64x128_S2048x128_1_0_0_1_n_n 64 rfl rfl k
  have el : dot_S2048x64_S64x128_S2048x128_1_0_0_1_n_n.lhsIdx (ix2 p j) ((contrEquiv1 dot_S2048x64_S64x128_S2048x128_1_0_0_1_n_n 64 rfl rfl).symm k) = ix2 p k := funext fun a => Fin.ext (by
    match a with
    | ⟨0, _⟩ => exact lhs0_b _ _
    | ⟨1, _⟩ => exact (lhs1_b _ _).trans hk)
  have er : dot_S2048x64_S64x128_S2048x128_1_0_0_1_n_n.rhsIdx (ix2 p j) ((contrEquiv1 dot_S2048x64_S64x128_S2048x128_1_0_0_1_n_n 64 rfl rfl).symm k) = ix2 k j := funext fun a => Fin.ext (by
    match a with
    | ⟨0, _⟩ => exact (rhs0_b _ _).trans hk
    | ⟨1, _⟩ => exact rhs1_b _ _)
  rw [el, er]

end Cert.KernelIdeal.Rows

end
-- ==== Proof.KRow.lean ====
/-
  The kernel body on one block of 2048 rows, read row by row.

  The body loads a block of 2048 rows of the input, of the two states and of the time spans, and the whole of the six
  weight arrays; everything it computes at row `p` of the block depends on row `p` of those blocks only: the three
  matrix products contract along a row, the biases and the time span are broadcast along rows or columns, and the rest
  is pointwise. So each value the body computes, read at entry `(p, q)`, is the specification's row function of row
  `p` of the loaded blocks: the gate pre-activations (`gateFused`), the new cell state (`cellC`), the hidden state
  (`cellH`), the field (`fode`) at each Runge–Kutta stage, and the two stored blocks (`cellC` and `rk4`).
-/
import proofs.«114038_j40458591928886_2_alg».proof.Proof.Gen.KernelIdeal.Frame
import proofs.«114038_j40458591928886_2_alg».proof.Proof.Spec
import proofs.«114038_j40458591928886_2_alg».proof.Proof.LibRowLayout
import proofs.«114038_j40458591928886_2_alg».proof.Proof.KDots
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx Cert.OdeLstm
open scoped BigOperators

/-! ## The specification's row functions at the body's operands -/

/-- The gate pre-activations of row `p`, from the blocks of the input and of the hidden state, the fused weight
    matrix and the summed bias. -/
abbrev gatesK (X0 : FVec Ideal S2048x64 .f32) (X1 : FVec Ideal S2048x128 .f32) (X4 : FVec Ideal S192x512 .bf16)
    (X5 : FVec Ideal S1x512 .f32) (p : Fin 2048) : Fin 512 → EReal :=
  gateFused (fun k => X0 (ix2 p k)) (fun k => X1 (ix2 p k)) (fun k j => X4 (ix2 k j)) (fun j => X5 (ix2 (0 : Fin 1) j))

/-- The field, with the two weight matrices as the body holds them (already transposed) and the two bias rows. -/
abbrev fodeK (X6 : FVec Ideal S128x64 .bf16) (X7 : FVec Ideal S1x64 .f32) (X8 : FVec Ideal S64x128 .bf16)
    (X9 : FVec Ideal S1x128 .f32) : (Fin 128 → EReal) → Fin 128 → EReal :=
  fode (fun k l => X6 (ix2 l k)) (fun k => X7 (ix2 (0 : Fin 1) k)) (fun q k => X8 (ix2 k q)) (fun q => X9 (ix2 (0 : Fin 1) q))

/-! ## The gates -/

/-- The fused product plus the bias row at `(p, j)` is gate `j` of row `p`: the left operand is [x | h0] of the row. -/
theorem pay7_apply (X0 : FVec Ideal S2048x64 .f32) (X1 : FVec Ideal S2048x128 .f32) (X4 : FVec Ideal S192x512 .bf16)
    (X5 : FVec Ideal S1x512 .f32) (p : Fin 2048) (j : Fin 512) :
    k0_pay7 (F := Ideal) X0 X1 X4 X5 (ix2 p j) = gatesK X0 X1 X4 X5 p j := by
  show (addf (matmul dot_S2048x192_S192x512_S2048x512_1_0_0_1_n_n none
      (concatenate S2048x192 1 [⟨S2048x64, truncf .bf16 X0 bitsLt_bf16_f32⟩, ⟨S2048x128, truncf .bf16 X1 bitsLt_bf16_f32⟩]
        concatenates_S2048x64_S2048x128_S2048x192_d1)
      (shapeCast S192x512 X4 shapeCasts_S192x512_S192x512) (constant S2048x512 .f32 0x00000000#32))
      (broadcastTo S2048x512 (shapeCast S1x512 X5 shapeCasts_S1x512_S1x512) broadcasts_S1x512_S2048x512)) (ix2 p j) = _
  rw [addf_apply, matmul_gates_apply, broadcastTo_1b_ab_apply, shapeCast_self, shapeCast_self]
  refine congrArg₂ (· + ·) (Finset.sum_congr rfl fun k _ => congrArg₂ (· * ·) ?_ rfl) rfl
  unfold catRow
  by_cases hk : k.val < 64
  · rw [dif_pos hk, RowLayout.concat_cols_left _ _ _ p k hk]; rfl
  · rw [dif_neg hk, RowLayout.concat_cols_right _ _ _ p k (by omega) (by have := k.isLt; omega)]; rfl

/-- The four gate slices read the pre-activations at their offsets. -/
theorem pay8_apply (X0 : FVec Ideal S2048x64 .f32) (X1 : FVec Ideal S2048x128 .f32) (X4 : FVec Ideal S192x512 .bf16)
    (X5 : FVec Ideal S1x512 .f32) (p : Fin 2048) (q : Fin 128) :
    k0_pay8 (F := Ideal) X0 X1 X4 X5 (ix2 p q) = k0_pay7 (F := Ideal) X0 X1 X4 X5 (ix2 p (gI q)) := by
  show extractStridedSlice S2048x128 ![0, 0] (k0_pay7 (F := Ideal) X0 X1 X4 X5) slices_S2048x512_o0_0_S2048x128 (ix2 p q) = _
  exact slice2_axis1_apply 0 _ _ p q (gI q) rfl

theorem pay9_apply (X0 : FVec Ideal S2048x64 .f32) (X1 : FVec Ideal S2048x128 .f32) (X4 : FVec Ideal S192x512 .bf16)
    (X5 : FVec Ideal S1x512 .f32) (p : Fin 2048) (q : Fin 128) :
    k0_pay9 (F := Ideal) X0 X1 X4 X5 (ix2 p q) = k0_pay7 (F := Ideal) X0 X1 X4 X5 (ix2 p (gG q)) := by
  show extractStridedSlice S2048x128 ![0, 256] (k0_pay7 (F := Ideal) X0 X1 X4 X5) slices_S2048x512_o0_256_S2048x128 (ix2 p q) = _
  exact slice2_axis1_apply 256 _ _ p q (gG q) rfl

theorem pay10_apply (X0 : FVec Ideal S2048x64 .f32) (X1 : FVec Ideal S2048x128 .f32) (X4 : FVec Ideal S192x512 .bf16)
    (X5 : FVec Ideal S1x512 .f32) (p : Fin 2048) (q : Fin 128) :
    k0_pay10 (F := Ideal) X0 X1 X4 X5 (ix2 p q) = k0_pay7 (F := Ideal) X0 X1 X4 X5 (ix2 p (gO q)) := by
  show extractStridedSlice S2048x128 ![0, 384] (k0_pay7 (F := Ideal) X0 X1 X4 X5) slices_S2048x512_o0_384_S2048x128 (ix2 p q) = _
  exact slice2_axis1_apply 384 _ _ p q (gO q) rfl

/-- The forget gate's share of the new cell state: σ(f)·c0. -/
theorem pay11_apply (X0 : FVec Ideal S2048x64 .f32) (X1 X2 : FVec Ideal S2048x128 .f32) (X4 : FVec Ideal S192x512 .bf16)
    (X5 : FVec Ideal S1x512 .f32) (p : Fin 2048) (q : Fin 128) :
    k0_pay11 (F := Ideal) X0 X1 X2 X4 X5 (ix2 p q) = sigT (k0_pay7 (F := Ideal) X0 X1 X4 X5 (ix2 p (gF q))) * X2 (ix2 p q) := by
  have e : extractStridedSlice S2048x128 ![0, 128] (k0_pay7 (F := Ideal) X0 X1 X4 X5) slices_S2048x512_o0_128_S2048x128 (ix2 p q)
      = k0_pay7 (F := Ideal) X0 X1 X4 X5 (ix2 p (gF q)) := slice2_axis1_apply 128 _ _ p q (gF q) rfl
  show sigT (extractStridedSlice S2048x128 ![0, 128] (k0_pay7 (F := Ideal) X0 X1 X4 X5) slices_S2048x512_o0_128_S2048x128 (ix2 p q))
    * X2 (ix2 p q) = _
  rw [e]

/-! ## The cell update: pointwise -/

theorem pay12_apply (v23 v25 v34 : FVec Ideal S2048x128 .f32) (i : S2048x128.Idx) :
    k0_pay12 (F := Ideal) v23 v25 v34 i = v34 i + sigT (v23 i) * Ideal.tanh (v25 i) := rfl

theorem pay13_apply (v23 v25 v26 v34 : FVec Ideal S2048x128 .f32) (i : S2048x128.Idx) :
    k0_pay13 (F := Ideal) v23 v25 v26 v34 i = sigT (v26 i) * Ideal.tanh (k0_pay12 (F := Ideal) v23 v25 v34 i) := rfl

/-- The new cell state at `(p, q)`. -/
theorem c_apply (X0 : FVec Ideal S2048x64 .f32) (X1 X2 : FVec Ideal S2048x128 .f32) (X4 : FVec Ideal S192x512 .bf16)
    (X5 : FVec Ideal S1x512 .f32) (p : Fin 2048) (q : Fin 128) :
    k0_pay12 (F := Ideal) (k0_pay8 (F := Ideal) X0 X1 X4 X5) (k0_pay9 (F := Ideal) X0 X1 X4 X5) (k0_pay11 (F := Ideal) X0 X1 X2 X4 X5) (ix2 p q)
      = cellC sigT (gatesK X0 X1 X4 X5 p) (fun l => X2 (ix2 p l)) q := by
  rw [pay12_apply, pay11_apply, pay8_apply, pay9_apply, pay7_apply, pay7_apply, pay7_apply]
  rfl

/-- The hidden state before the ODE step at `(p, q)`. -/
theorem h_apply (X0 : FVec Ideal S2048x64 .f32) (X1 X2 : FVec Ideal S2048x128 .f32) (X4 : FVec Ideal S192x512 .bf16)
    (X5 : FVec Ideal S1x512 .f32) (p : Fin 2048) (q : Fin 128) :
    k0_pay13 (F := Ideal) (k0_pay8 (F := Ideal) X0 X1 X4 X5) (k0_pay9 (F := Ideal) X0 X1 X4 X5) (k0_pay10 (F := Ideal) X0 X1 X4 X5) (k0_pay11 (F := Ideal) X0 X1 X2 X4 X5) (ix2 p q)
      = cellH sigT (gatesK X0 X1 X4 X5 p) (fun l => X2 (ix2 p l)) q := by
  rw [pay13_apply, pay10_apply, pay7_apply, c_apply]
  rfl

/-! ## The field on a block -/

/-- The field applied to every row of a block `Y`: two matrix products, each followed by a bias row, a hyperbolic
    tangent between them. -/
def fodeV (Y : FVec Ideal S2048x128 .f32) (v10 : FVec Ideal S128x64 .bf16) (v12 : FVec Ideal S1x64 .f32)
    (v14 : FVec Ideal S64x128 .bf16) (v16 : FVec Ideal S1x128 .f32) : FVec Ideal S2048x128 .f32 :=
  addf (matmul dot_S2048x64_S64x128_S2048x128_1_0_0_1_n_n none
      (truncf .bf16 (tanh (addf (matmul dot_S2048x128_S128x64_S2048x64_1_0_0_1_n_n none (truncf .bf16 Y bitsLt_bf16_f32) v10
          (constant S2048x64 .f32 0x00000000#32)) (broadcastTo S2048x64 v12 broadcasts_S1x64_S2048x64))) bitsLt_bf16_f32)
      v14 (constant S2048x128 .f32 0x00000000#32))
    (broadcastTo S2048x128 v16 broadcasts_S1x128_S2048x128)

/-- At `(p, q)` it is the field of row `p` of `Y`, component `q`. -/
theorem fodeV_apply (Y : FVec Ideal S2048x128 .f32) (v10 : FVec Ideal S128x64 .bf16) (v12 : FVec Ideal S1x64 .f32)
    (v14 : FVec Ideal S64x128 .bf16) (v16 : FVec Ideal S1x128 .f32) (p : Fin 2048) (q : Fin 128) :
    fodeV Y v10 v12 v14 v16 (ix2 p q) = fodeK v10 v12 v14 v16 (fun l => Y (ix2 p l)) q := by
  unfold fodeV
  rw [addf_apply, matmul_out_apply, broadcastTo_1b_ab_apply]
  refine congrArg₂ (· + ·) (Finset.sum_congr rfl fun k _ => congrArg₂ (· * ·) ?_ rfl) rfl
  show Ideal.tanh ((matmul dot_S2048x128_S128x64_S2048x64_1_0_0_1_n_n none (truncf .bf16 Y bitsLt_bf16_f32) v10
      (constant S2048x64 .f32 0x00000000#32)) (ix2 p k) + (broadcastTo S2048x64 v12 broadcasts_S1x64_S2048x64) (ix2 p k)) = _
  rw [matmul_in_apply, broadcastTo_1b_ab_apply]
  rfl

/-- The first stage is the field of the hidden state. -/
theorem pay14_eq (v10 : FVec Ideal S128x64 .bf16) (v12 : FVec Ideal S1x64 .f32) (v14 : FVec Ideal S64x128 .bf16)
    (v16 : FVec Ideal S1x128 .f32) (v23 v25 v26 v34 : FVec Ideal S2048x128 .f32) :
    k0_pay14 (F := Ideal) v10 v12 v14 v16 v23 v25 v26 v34 = fodeV (k0_pay13 (F := Ideal) v23 v25 v26 v34) v10 v12 v14 v16 := rfl

/-- The second stage is the field of h + dt·(k1·⅓). -/
theorem pay15_eq (v4 : FVec Ideal S2048x1 .f32) (v10 : FVec Ideal S128x64 .bf16) (v12 : FVec Ideal S1x64 .f32)
    (v14 : FVec Ideal S64x128 .bf16) (v16 : FVec Ideal S1x128 .f32) (v23 v25 v26 v34 : FVec Ideal S2048x128 .f32) :
    k0_pay15 (F := Ideal) v4 v10 v12 v14 v16 v23 v25 v26 v34
      = fodeV (addf (k0_pay13 (F := Ideal) v23 v25 v26 v34) (mulf (broadcastTo S2048x128 v4 broadcasts_S2048x1_S2048x128)
          (mulf (k0_pay14 (F := Ideal) v10 v12 v14 v16 v23 v25 v26 v34) (broadcast S2048x128 (Scalar.ofBits .f32 0x3EAAAAAB#32)))))
        v10 v12 v14 v16 := rfl

/-- The argument of the third stage at `(p, q)`: h + dt·(k2 − k1·⅓), the time span read in its column. -/
theorem pay16_apply (v4 : FVec Ideal S2048x1 .f32) (v10 : FVec Ideal S128x64 .bf16) (v12 : FVec Ideal S1x64 .f32)
    (v14 : FVec Ideal S64x128 .bf16) (v16 : FVec Ideal S1x128 .f32) (v23 v25 v26 v34 : FVec Ideal S2048x128 .f32)
    (p : Fin 2048) (q : Fin 128) :
    k0_pay16 (F := Ideal) v4 v10 v12 v14 v16 v23 v25 v26 v34 (ix2 p q)
      = k0_pay13 (F := Ideal) v23 v25 v26 v34 (ix2 p q) + v4 (ix2 p (0 : Fin 1))
          * (k0_pay15 (F := Ideal) v4 v10 v12 v14 v16 v23 v25 v26 v34 (ix2 p q) - k0_pay14 (F := Ideal) v10 v12 v14 v16 v23 v25 v26 v34 (ix2 p q) * cThird) := by
  show k0_pay13 (F := Ideal) v23 v25 v26 v34 (ix2 p q) + (broadcastTo S2048x128 v4 broadcasts_S2048x1_S2048x128) (ix2 p q)
      * (k0_pay15 (F := Ideal) v4 v10 v12 v14 v16 v23 v25 v26 v34 (ix2 p q) - k0_pay14 (F := Ideal) v10 v12 v14 v16 v23 v25 v26 v34 (ix2 p q) * cThird) = _
  rw [RowLayout.broadcastTo_a1_ab_apply]

/-- The argument of the second stage at `(p, l)`. -/
theorem stage2_apply (v4 : FVec Ideal S2048x1 .f32) (h k1 : FVec Ideal S2048x128 .f32) (p : Fin 2048) (l : Fin 128) :
    (addf h (mulf (broadcastTo S2048x128 v4 broadcasts_S2048x1_S2048x128)
      (mulf k1 (broadcast S2048x128 (Scalar.ofBits .f32 0x3EAAAAAB#32))))) (ix2 p l)
      = stage2 (fun l => h (ix2 p l)) (fun l => k1 (ix2 p l)) (v4 (ix2 p (0 : Fin 1))) l := by
  show h (ix2 p l) + (broadcastTo S2048x128 v4 broadcasts_S2048x1_S2048x128) (ix2 p l) * (k1 (ix2 p l) * cThird) = _
  rw [RowLayout.broadcastTo_a1_ab_apply]
  rfl

/-- The last two stages and the combination at `(p, q)`. -/
theorem pay1_apply (v4 : FVec Ideal S2048x1 .f32) (v10 : FVec Ideal S128x64 .bf16) (v12 : FVec Ideal S1x64 .f32)
    (v14 : FVec Ideal S64x128 .bf16) (v16 : FVec Ideal S1x128 .f32) (v53 v62 v76 v82 : FVec Ideal S2048x128 .f32)
    (p : Fin 2048) (q : Fin 128) :
    k0_pay1 (F := Ideal) v4 v10 v12 v14 v16 v53 v62 v76 v82 (ix2 p q)
      = rkTail (fodeK v10 v12 v14 v16) (fun l => v53 (ix2 p l)) (fun l => v62 (ix2 p l)) (fun l => v76 (ix2 p l))
          (fun l => v82 (ix2 p l)) (v4 (ix2 p (0 : Fin 1))) q := by
  have hy : (fun l : Fin 128 => (addf v53 (mulf (broadcastTo S2048x128 v4 broadcasts_S2048x1_S2048x128)
        (addf (subf v62 v76) (fodeV v82 v10 v12 v14 v16)))) (ix2 p l))
      = fun l => v53 (ix2 p l) + v4 (ix2 p (0 : Fin 1))
          * (v62 (ix2 p l) - v76 (ix2 p l) + fodeK v10 v12 v14 v16 (fun l => v82 (ix2 p l)) l) := by
    funext l
    show v53 (ix2 p l) + (broadcastTo S2048x128 v4 broadcasts_S2048x1_S2048x128) (ix2 p l)
        * (v62 (ix2 p l) - v76 (ix2 p l) + fodeV v82 v10 v12 v14 v16 (ix2 p l)) = _
    rw [RowLayout.broadcastTo_a1_ab_apply, fodeV_apply]
  show v53 (ix2 p q) + (broadcastTo S2048x128 v4 broadcasts_S2048x1_S2048x128) (ix2 p q)
      * (v62 (ix2 p q) + cThree * v76 (ix2 p q) + cThree * fodeV v82 v10 v12 v14 v16 (ix2 p q)
        + fodeV (addf v53 (mulf (broadcastTo S2048x128 v4 broadcasts_S2048x1_S2048x128)
            (addf (subf v62 v76) (fodeV v82 v10 v12 v14 v16)))) v10 v12 v14 v16 (ix2 p q)) * cEighth = _
  rw [RowLayout.broadcastTo_a1_ab_apply, fodeV_apply, fodeV_apply, hy]
  rfl

/-! ## The two stored blocks -/

theorem hz : (![0, 0] : Fin 2 → Nat) = fun _ => 0 := funext fun a => by fin_cases a <;> rfl

/-- The block stored for the cell state is the new cell state of each of its rows. -/
theorem out11_apply (X0 : FVec Ideal S2048x64 .f32) (X1 X2 : FVec Ideal S2048x128 .f32) (X3 : FVec Ideal S2048x1 .f32)
    (X4 : FVec Ideal S192x512 .bf16) (X5 : FVec Ideal S1x512 .f32) (X6 : FVec Ideal S128x64 .bf16) (X7 : FVec Ideal S1x64 .f32)
    (X8 : FVec Ideal S64x128 .bf16) (X9 : FVec Ideal S1x128 .f32) (p : Fin 2048) (q : Fin 128) :
    out0_11 (F := Ideal) X0 X1 X2 X3 X4 X5 X6 X7 X8 X9 (ix2 p q) = cellC sigT (gatesK X0 X1 X4 X5 p) (fun l => X2 (ix2 p l)) q := by
  unfold out0_11
  rw [View.canon_unit_zero hz]
  simp only [View.ld_unit_zero (S := S2048x64) hz, View.ld_unit_zero (S := S2048x128) hz, View.ld_unit_zero (S := S192x512) hz,
    View.ld_unit_zero (S := S1x512) hz]
  exact c_apply X0 X1 X2 X4 X5 p q

/-- The block stored for the hidden state is one Runge–Kutta step from the hidden state of each of its rows, over the
    row's time span. -/
theorem out10_apply (X0 : FVec Ideal S2048x64 .f32) (X1 X2 : FVec Ideal S2048x128 .f32) (X3 : FVec Ideal S2048x1 .f32)
    (X4 : FVec Ideal S192x512 .bf16) (X5 : FVec Ideal S1x512 .f32) (X6 : FVec Ideal S128x64 .bf16) (X7 : FVec Ideal S1x64 .f32)
    (X8 : FVec Ideal S64x128 .bf16) (X9 : FVec Ideal S1x128 .f32) (p : Fin 2048) (q : Fin 128) :
    out0_10 (F := Ideal) X0 X1 X2 X3 X4 X5 X6 X7 X8 X9 (ix2 p q)
      = rk4 (fodeK X6 X7 X8 X9) (cellH sigT (gatesK X0 X1 X4 X5 p) (fun l => X2 (ix2 p l))) (X3 (ix2 p (0 : Fin 1))) q := by
  unfold out0_10
  rw [View.canon_unit_zero hz]
  simp only [View.ld_unit_zero (S := S2048x64) hz, View.ld_unit_zero (S := S2048x128) hz, View.ld_unit_zero (S := S2048x1) hz,
    View.ld_unit_zero (S := S192x512) hz, View.ld_unit_zero (S := S1x512) hz, View.ld_unit_zero (S := S128x64) hz,
    View.ld_unit_zero (S := S1x64) hz, View.ld_unit_zero (S := S64x128) hz, View.ld_unit_zero (S := S1x128) hz]
  have e2 : k0_pay2 (F := Ideal) X3 = X3 := shapeCast_self _ _
  have e3 : k0_pay3 (F := Ideal) X6 = X6 := shapeCast_self _ _
  have e4 : k0_pay4 (F := Ideal) X7 = X7 := shapeCast_self _ _
  have e5 : k0_pay5 (F := Ideal) X8 = X8 := shapeCast_self _ _
  have e6 : k0_pay6 (F := Ideal) X9 = X9 := shapeCast_self _ _
  rw [e2, e3, e4, e5, e6, pay1_apply]
  -- the rows of the hidden state, of the first two stages and of the third stage's argument
  have r13 : (fun l : Fin 128 => k0_pay13 (F := Ideal) (k0_pay8 (F := Ideal) X0 X1 X4 X5) (k0_pay9 (F := Ideal) X0 X1 X4 X5) (k0_pay10 (F := Ideal) X0 X1 X4 X5)
        (k0_pay11 (F := Ideal) X0 X1 X2 X4 X5) (ix2 p l)) = cellH sigT (gatesK X0 X1 X4 X5 p) (fun l => X2 (ix2 p l)) :=
    funext fun l => h_apply X0 X1 X2 X4 X5 p l
  have r14 : (fun l : Fin 128 => k0_pay14 (F := Ideal) X6 X7 X8 X9 (k0_pay8 (F := Ideal) X0 X1 X4 X5) (k0_pay9 (F := Ideal) X0 X1 X4 X5) (k0_pay10 (F := Ideal) X0 X1 X4 X5)
        (k0_pay11 (F := Ideal) X0 X1 X2 X4 X5) (ix2 p l))
      = fodeK X6 X7 X8 X9 (cellH sigT (gatesK X0 X1 X4 X5 p) (fun l => X2 (ix2 p l))) := by
    funext l
    rw [pay14_eq, fodeV_apply, r13]
  have r15 : (fun l : Fin 128 => k0_pay15 (F := Ideal) X3 X6 X7 X8 X9 (k0_pay8 (F := Ideal) X0 X1 X4 X5) (k0_pay9 (F := Ideal) X0 X1 X4 X5) (k0_pay10 (F := Ideal) X0 X1 X4 X5)
        (k0_pay11 (F := Ideal) X0 X1 X2 X4 X5) (ix2 p l))
      = fodeK X6 X7 X8 X9 (stage2 (cellH sigT (gatesK X0 X1 X4 X5 p) (fun l => X2 (ix2 p l)))
          (fodeK X6 X7 X8 X9 (cellH sigT (gatesK X0 X1 X4 X5 p) (fun l => X2 (ix2 p l)))) (X3 (ix2 p (0 : Fin 1)))) := by
    funext l
    rw [pay15_eq, fodeV_apply]
    refine congrArg (fun y => fodeK X6 X7 X8 X9 y l) (funext fun l' => ?_)
    rw [stage2_apply, r13, r14]
  have r16 : (fun l : Fin 128 => k0_pay16 (F := Ideal) X3 X6 X7 X8 X9 (k0_pay8 (F := Ideal) X0 X1 X4 X5) (k0_pay9 (F := Ideal) X0 X1 X4 X5) (k0_pay10 (F := Ideal) X0 X1 X4 X5)
        (k0_pay11 (F := Ideal) X0 X1 X2 X4 X5) (ix2 p l))
      = stage3 (cellH sigT (gatesK X0 X1 X4 X5 p) (fun l => X2 (ix2 p l)))
          (fodeK X6 X7 X8 X9 (cellH sigT (gatesK X0 X1 X4 X5 p) (fun l => X2 (ix2 p l))))
          (fodeK X6 X7 X8 X9 (stage2 (cellH sigT (gatesK X0 X1 X4 X5 p) (fun l => X2 (ix2 p l)))
            (fodeK X6 X7 X8 X9 (cellH sigT (gatesK X0 X1 X4 X5 p) (fun l => X2 (ix2 p l)))) (X3 (ix2 p (0 : Fin 1)))))
          (X3 (ix2 p (0 : Fin 1))) := by
    funext l
    rw [pay16_apply, congrFun r13 l, congrFun r14 l, congrFun r15 l]
    rfl
  rw [r13, r14, r15, r16]
  rfl

end Cert.KernelIdeal.Rows

end
-- ==== Proof.Result.lean ====
/-
  The two result arrays of the ODE-LSTM step as functions of the twelve argument arrays, entry by entry.

  Entry `(r, q)` of either result depends on row `r` of the input, of the two states and of the time spans, and on
  the weights: it is the row function of Proof/Spec.lean at that row, component `q`. The gates are spelt here in the
  fused form (one contraction of [x | h0] with [W_ih | W_hh], bias b_ih + b_hh) and the logistic function through the
  hyperbolic tangent; `rowC_eq_split` and `rowH_eq_split` restate both results with the split gates and the
  logistic function through the exponential, by the two laws of that file.
-/
import proofs.«114038_j40458591928886_2_alg».proof.Proof.Spec
import Idealize.ShloMosaic.Lib.ValueIdx

noncomputable section

namespace Cert.OdeLstm

open Idealize.ShloMosaic Idealize.ShloMosaic.ValueIdx

variable (a0 : (⟨2, ![65536, 64]⟩ : Shape).Idx → EReal) (a1 a2 : (⟨2, ![65536, 128]⟩ : Shape).Idx → EReal)
  (a3 : (⟨1, ![65536]⟩ : Shape).Idx → EReal) (a4 : (⟨2, ![512, 64]⟩ : Shape).Idx → EReal)
  (a5 : (⟨1, ![512]⟩ : Shape).Idx → EReal) (a6 : (⟨2, ![512, 128]⟩ : Shape).Idx → EReal)
  (a7 : (⟨1, ![512]⟩ : Shape).Idx → EReal) (a8 : (⟨2, ![64, 128]⟩ : Shape).Idx → EReal)
  (a9 : (⟨1, ![64]⟩ : Shape).Idx → EReal) (a10 : (⟨2, ![128, 64]⟩ : Shape).Idx → EReal)
  (a11 : (⟨1, ![128]⟩ : Shape).Idx → EReal)

/-- The gate pre-activations of row `r`, fused: [x | h0] against [W_ih | W_hh], bias b_ih + b_hh. -/
def rowGates (r : Fin 65536) : Fin 512 → EReal :=
  gateFused (fun k => a0 (ix2 r k)) (fun k => a1 (ix2 r k))
    (fun k j => catRow (fun a => a4 (ix2 j a)) (fun a => a6 (ix2 j a)) k) (fun j => a5 (ix1 j) + a7 (ix1 j))

/-- The same, split: x·W_ihᵀ + b_ih + h0·W_hhᵀ + b_hh. -/
def rowGatesSplit (r : Fin 65536) : Fin 512 → EReal :=
  gateSplit (fun k => a0 (ix2 r k)) (fun k => a1 (ix2 r k)) (fun j k => a4 (ix2 j k)) (fun j => a5 (ix1 j))
    (fun j k => a6 (ix2 j k)) (fun j => a7 (ix1 j))

theorem rowGates_eq_split (r : Fin 65536) : rowGates a0 a1 a4 a5 a6 a7 r = rowGatesSplit a0 a1 a4 a5 a6 a7 r :=
  funext fun j => gateFused_eq_gateSplit _ _ (fun j k => a4 (ix2 j k)) (fun j => a5 (ix1 j)) (fun j k => a6 (ix2 j k))
    (fun j => a7 (ix1 j)) j

/-- The ODE's field with the weights W1, b1, W2, b2 as given. -/
def rowField : (Fin 128 → EReal) → Fin 128 → EReal :=
  fode (fun k l => a8 (ix2 k l)) (fun k => a9 (ix1 k)) (fun q k => a10 (ix2 q k)) (fun q => a11 (ix1 q))

/-- The new cell state of row `r`. -/
def rowC (r : Fin 65536) (q : Fin 128) : EReal :=
  cellC sigT (rowGates a0 a1 a4 a5 a6 a7 r) (fun l => a2 (ix2 r l)) q

/-- The new hidden state of row `r`: one Runge–Kutta step from σ(o)·tanh(c) over the row's time span. -/
def rowH (r : Fin 65536) (q : Fin 128) : EReal :=
  rk4 (rowField a8 a9 a10 a11) (cellH sigT (rowGates a0 a1 a4 a5 a6 a7 r) (fun l => a2 (ix2 r l))) (a3 (ix1 r)) q

/-- The cell-state result array. -/
def resC : (⟨2, ![65536, 128]⟩ : Shape).Idx → EReal := fun i => rowC a0 a1 a2 a4 a5 a6 a7 (i 0) (i 1)

/-- The hidden-state result array. -/
def resH : (⟨2, ![65536, 128]⟩ : Shape).Idx → EReal := fun i => rowH a0 a1 a2 a3 a4 a5 a6 a7 a8 a9 a10 a11 (i 0) (i 1)

/-- The logistic function's two spellings, as functions. -/
theorem sigT_eq : (sigT : EReal → EReal) = sigE := funext sigT_eq_sigE

theorem rowC_eq_split (r : Fin 65536) (q : Fin 128) :
    rowC a0 a1 a2 a4 a5 a6 a7 r q = cellC sigE (rowGatesSplit a0 a1 a4 a5 a6 a7 r) (fun l => a2 (ix2 r l)) q := by
  unfold rowC
  rw [rowGates_eq_split, sigT_eq]

theorem rowH_eq_split (r : Fin 65536) (q : Fin 128) :
    rowH a0 a1 a2 a3 a4 a5 a6 a7 a8 a9 a10 a11 r q
      = rk4 (rowField a8 a9 a10 a11) (cellH sigE (rowGatesSplit a0 a1 a4 a5 a6 a7 r) (fun l => a2 (ix2 r l))) (a3 (ix1 r)) q := by
  unfold rowH
  rw [rowGates_eq_split, sigT_eq]

end Cert.OdeLstm

end
-- ==== Proof.KArray.lean ====
/-
  From the kernel's blocks to its two result arrays.

  The grid has 32 points; point `t` works on rows `2048·t … 2048·t + 2047` of the input, the two states, the time
  spans and the two results, and on the whole of the six weight arrays, which the host operations before the region
  prepare: [W_ih | W_hh] transposed, b_ih + b_hh as a row, W1 and W2 transposed, b1 and b2 as rows, the time spans as a
  column. Each of those arrays is read here at an index in terms of the arguments; each window's block at a point is
  read as rows of its array; so what point `t` writes back is block `t` of the result arrays of Proof/Result.lean
  (Proof/KRow.lean gives each row of the block), and the 32 blocks cover the arrays.
-/
import proofs.«114038_j40458591928886_2_alg».proof.Proof.Gen.KernelIdeal.Value
import proofs.«114038_j40458591928886_2_alg».proof.Proof.KRow
import proofs.«114038_j40458591928886_2_alg».proof.Proof.Result
import Idealize.ShloMosaic.Lib.StableHlo.Run
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.ValueIdx Cert.OdeLstm
open Idealize.ShloMosaic.Pipeline (Dat)

variable (m : (ℓ : Loc nD τ sig) → Buf (Elt Ideal) ℓ) (ρ : Dev nD → PrngReg)

/-! ## The arguments on a core, as arrays of extended reals -/

abbrev arg0 (c : Dev nD) : S65536x64.Idx → EReal := m ((c : Thread nD τ).loc main_arg0)
abbrev arg1 (c : Dev nD) : S65536x128.Idx → EReal := m ((c : Thread nD τ).loc main_arg1)
abbrev arg2 (c : Dev nD) : S65536x128.Idx → EReal := m ((c : Thread nD τ).loc main_arg2)
abbrev arg3 (c : Dev nD) : S65536.Idx → EReal := m ((c : Thread nD τ).loc main_arg3)
abbrev arg4 (c : Dev nD) : S512x64.Idx → EReal := m ((c : Thread nD τ).loc main_arg4)
abbrev arg5 (c : Dev nD) : S512.Idx → EReal := m ((c : Thread nD τ).loc main_arg5)
abbrev arg6 (c : Dev nD) : S512x128.Idx → EReal := m ((c : Thread nD τ).loc main_arg6)
abbrev arg7 (c : Dev nD) : S512.Idx → EReal := m ((c : Thread nD τ).loc main_arg7)
abbrev arg8 (c : Dev nD) : S64x128.Idx → EReal := m ((c : Thread nD τ).loc main_arg8)
abbrev arg9 (c : Dev nD) : S64.Idx → EReal := m ((c : Thread nD τ).loc main_arg9)
abbrev arg10 (c : Dev nD) : S128x64.Idx → EReal := m ((c : Thread nD τ).loc main_arg10)
abbrev arg11 (c : Dev nD) : S128.Idx → EReal := m ((c : Thread nD τ).loc main_arg11)

/-- Row `p` of point `t`'s block is row `2048·t + p` of the array. -/
def rowIdx (t : Fin cfg0.N) (p : Fin 2048) : Fin 65536 :=
  ⟨t.val * 2048 + p.val, by have := t.isLt; have h : cfg0.N = 32 := N_0; have := p.isLt; omega⟩

/-! ## The printed index maps, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)

/-! ## What the host operations leave in the region's weight arrays -/

/-- The fused weight matrix at `(k, j)`: entry `k` of [W_ih | W_hh]'s row `j`. -/
theorem V_v2_apply (c : Dev nD) (k : Fin 192) (j : Fin 512) :
    (V m c main_v2 : S192x512.Idx → EReal) (ix2 k j)
      = catRow (fun a => arg4 m c (ix2 j a)) (fun a => arg6 m c (ix2 j a)) k := by
  have e : (V m c main_v2 : S192x512.Idx → EReal) = truncf (F := Ideal) .bf16 (transpose S192x512 [1, 0]
      (concatenate S512x192 1 [⟨S512x64, arg4 m c⟩, ⟨S512x128, arg6 m c⟩] concatenates_S512x64_S512x128_S512x192_d1)
      transposes_S512x192_S192x512_1_0) bitsLt_bf16_f32 := by
    unfold V; after_results <;> rfl
  rw [e]
  show transpose S192x512 [1, 0] (concatenate S512x192 1 [⟨S512x64, arg4 m c⟩, ⟨S512x128, arg6 m c⟩]
      concatenates_S512x64_S512x128_S512x192_d1) transposes_S512x192_S192x512_1_0 (ix2 k j) = _
  rw [transpose_ix2_apply]
  unfold catRow
  by_cases hk : k.val < 64
  · rw [dif_pos hk, RowLayout.concat_cols_left _ _ _ j k hk]
  · rw [dif_neg hk, RowLayout.concat_cols_right _ _ _ j k (by omega) (by have := k.isLt; omega)]

/-- The summed bias row at `(0, j)`. -/
theorem V_v4_apply (c : Dev nD) (j : Fin 512) :
    (V m c main_v4 : S1x512.Idx → EReal) (ix2 (0 : Fin 1) j) = arg5 m c (ix1 j) + arg7 m c (ix1 j) := by
  have e : (V m c main_v4 : S1x512.Idx → EReal) = shapeCast S1x512 (addf (F := Ideal) (φ := .f32) (arg5 m c) (arg7 m c)) shapeCasts_S512_S1x512 := by
    unfold V; after_results <;> rfl
  rw [e, shapeCast_a_1a_apply]
  rfl

/-- W1 transposed at `(l, k)`. -/
theorem V_v6_apply (c : Dev nD) (l : Fin 128) (k : Fin 64) :
    (V m c main_v6 : S128x64.Idx → EReal) (ix2 l k) = arg8 m c (ix2 k l) := by
  have e : (V m c main_v6 : S128x64.Idx → EReal) = truncf (F := Ideal) .bf16 (transpose S128x64 [1, 0] (arg8 m c)
      transposes_S64x128_S128x64_1_0) bitsLt_bf16_f32 := by
    unfold V; after_results <;> rfl
  rw [e]
  show transpose S128x64 [1, 0] (arg8 m c) transposes_S64x128_S128x64_1_0 (ix2 l k) = _
  rw [transpose_ix2_apply]

/-- W2 transposed at `(k, q)`. -/
theorem V_v8_apply (c : Dev nD) (k : Fin 64) (q : Fin 128) :
    (V m c main_v8 : S64x128.Idx → EReal) (ix2 k q) = arg10 m c (ix2 q k) := by
  have e : (V m c main_v8 : S64x128.Idx → EReal) = truncf (F := Ideal) .bf16 (transpose S64x128 [1, 0] (arg10 m c)
      transposes_S128x64_S64x128_1_0) bitsLt_bf16_f32 := by
    unfold V; after_results <;> rfl
  rw [e]
  show transpose S64x128 [1, 0] (arg10 m c) transposes_S128x64_S64x128_1_0 (ix2 k q) = _
  rw [transpose_ix2_apply]

/-- b1 as a row. -/
theorem V_v9_apply (c : Dev nD) (k : Fin 64) :
    (V m c main_v9 : S1x64.Idx → EReal) (ix2 (0 : Fin 1) k) = arg9 m c (ix1 k) := by
  have e : (V m c main_v9 : S1x64.Idx → EReal) = shapeCast S1x64 (arg9 m c) shapeCasts_S64_S1x64 := by
    unfold V; after_results <;> rfl
  rw [e, shapeCast_a_1a_apply]

/-- b2 as a row. -/
theorem V_v10_apply (c : Dev nD) (q : Fin 128) :
    (V m c main_v10 : S1x128.Idx → EReal) (ix2 (0 : Fin 1) q) = arg11 m c (ix1 q) := by
  have e : (V m c main_v10 : S1x128.Idx → EReal) = shapeCast S1x128 (arg11 m c) shapeCasts_S128_S1x128 := by
    unfold V; after_results <;> rfl
  rw [e, shapeCast_a_1a_apply]

/-- The time spans as a column. -/
theorem V_v11_apply (c : Dev nD) (r : Fin 65536) :
    (V m c main_v11 : S65536x1.Idx → EReal) (ix2 r (0 : Fin 1)) = arg3 m c (ix1 r) := by
  have e : (V m c main_v11 : S65536x1.Idx → EReal) = shapeCast S65536x1 (arg3 m c) shapeCasts_S65536_S65536x1 := by
    unfold V; after_results <;> rfl
  rw [e, RowLayout.shapeCast_a_a1_apply]

/-! ## Each window's block at a point, read off its array -/

/-- Window 0's block at point `t`: rows `2048·t … 2048·t + 2047` of its array. -/
theorem iblk0_apply (c : Dev nD) (t : Fin cfg0.N) (p : Fin 2048) (k : Fin 64) :
    (iblk m c 0 t : FVec Ideal S2048x64 .f32) (ix2 p k) = arg0 m c (ix2 (rowIdx t p) k) := by
  obtain ⟨h0, h1⟩ := idx0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * p.val = t.val * 2048 + p.val; rw [h0]; omega
  | ⟨1, _⟩ => show win0_0.index t (1 : Fin 2) * 64 + 1 * k.val = k.val; rw [h1]; omega

/-- Window 1's block at point `t`: rows `2048·t … 2048·t + 2047` of its array. -/
theorem iblk1_apply (c : Dev nD) (t : Fin cfg0.N) (p : Fin 2048) (k : Fin 128) :
    (iblk m c 1 t : FVec Ideal S2048x128 .f32) (ix2 p k) = arg1 m c (ix2 (rowIdx t p) k) := by
  obtain ⟨h0, h1⟩ := idx1 t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 2048 + 1 * p.val = t.val * 2048 + p.val; rw [h0]; omega
  | ⟨1, _⟩ => show win0_1.index t (1 : Fin 2) * 128 + 1 * k.val = k.val; rw [h1]; omega

/-- Window 2's block at point `t`: rows `2048·t … 2048·t + 2047` of its array. -/
theorem iblk2_apply (c : Dev nD) (t : Fin cfg0.N) (p : Fin 2048) (k : Fin 128) :
    (iblk m c 2 t : FVec Ideal S2048x128 .f32) (ix2 p k) = arg2 m c (ix2 (rowIdx t p) k) := by
  obtain ⟨h0, h1⟩ := idx2 t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 2048 + 1 * p.val = t.val * 2048 + p.val; rw [h0]; omega
  | ⟨1, _⟩ => show win0_2.index t (1 : Fin 2) * 128 + 1 * k.val = k.val; rw [h1]; omega

/-- Window 3's block at point `t`: rows `2048·t … 2048·t + 2047` of its array. -/
theorem iblk3_apply (c : Dev nD) (t : Fin cfg0.N) (p : Fin 2048) (k : Fin 1) :
    (iblk m c 3 t : FVec Ideal S2048x1 .f32) (ix2 p k) = (V m c main_v11 : S65536x1.Idx → EReal) (ix2 (rowIdx t p) k) := by
  obtain ⟨h0, h1⟩ := idx3 t
  unfold iblk
  rw [View.read_apply]
  show V m c main_v11 _ = _
  refine congrArg (V m c main_v11) (funext fun a => Fin.ext ?_)
  match a with
  | ⟨0, _⟩ => show win0_3.index t (0 : Fin 2) * 2048 + 1 * p.val = t.val * 2048 + p.val; rw [h0]; omega
  | ⟨1, _⟩ => show win0_3.index t (1 : Fin 2) * 1 + 1 * k.val = k.val; rw [h1]; omega

/-- Window 4's block at point `t`: its whole array. -/
theorem iblk4_apply (c : Dev nD) (t : Fin cfg0.N) (p : Fin 192) (k : Fin 512) :
    (iblk m c 4 t : FVec Ideal S192x512 .bf16) (ix2 p k) = (V m c main_v2 : S192x512.Idx → EReal) (ix2 p k) := by
  obtain ⟨h0, h1⟩ := idx4 t
  unfold iblk
  rw [View.read_apply]
  show V m c main_v2 _ = _
  refine congrArg (V m c main_v2) (funext fun a => Fin.ext ?_)
  match a with
  | ⟨0, _⟩ => show win0_4.index t (0 : Fin 2) * 192 + 1 * p.val = p.val; rw [h0]; omega
  | ⟨1, _⟩ => show win0_4.index t (1 : Fin 2) * 512 + 1 * k.val = k.val; rw [h1]; omega

/-- Window 5's block at point `t`: its whole array. -/
theorem iblk5_apply (c : Dev nD) (t : Fin cfg0.N) (p : Fin 1) (k : Fin 512) :
    (iblk m c 5 t : FVec Ideal S1x512 .f32) (ix2 p k) = (V m c main_v4 : S1x512.Idx → EReal) (ix2 p k) := by
  obtain ⟨h0, h1⟩ := idx5 t
  unfold iblk
  rw [View.read_apply]
  show V m c main_v4 _ = _
  refine congrArg (V m c main_v4) (funext fun a => Fin.ext ?_)
  match a with
  | ⟨0, _⟩ => show win0_5.index t (0 : Fin 2) * 1 + 1 * p.val = p.val; rw [h0]; omega
  | ⟨1, _⟩ => show win0_5.index t (1 : Fin 2) * 512 + 1 * k.val = k.val; rw [h1]; omega

/-- Window 6's block at point `t`: its whole array. -/
theorem iblk6_apply (c : Dev nD) (t : Fin cfg0.N) (p : Fin 128) (k : Fin 64) :
    (iblk m c 6 t : FVec Ideal S128x64 .bf16) (ix2 p k) = (V m c main_v6 : S128x64.Idx → EReal) (ix2 p k) := by
  obtain ⟨h0, h1⟩ := idx6 t
  unfold iblk
  rw [View.read_apply]
  show V m c main_v6 _ = _
  refine congrArg (V m c main_v6) (funext fun a => Fin.ext ?_)
  match a with
  | ⟨0, _⟩ => show win0_6.index t (0 : Fin 2) * 128 + 1 * p.val = p.val; rw [h0]; omega
  | ⟨1, _⟩ => show win0_6.index t (1 : Fin 2) * 64 + 1 * k.val = k.val; rw [h1]; omega

/-- Window 7's block at point `t`: its whole array. -/
theorem iblk7_apply (c : Dev nD) (t : Fin cfg0.N) (p : Fin 1) (k : Fin 64) :
    (iblk m c 7 t : FVec Ideal S1x64 .f32) (ix2 p k) = (V m c main_v9 : S1x64.Idx → EReal) (ix2 p k) := by
  obtain ⟨h0, h1⟩ := idx7 t
  unfold iblk
  rw [View.read_apply]
  show V m c main_v9 _ = _
  refine congrArg (V m c main_v9) (funext fun a => Fin.ext ?_)
  match a with
  | ⟨0, _⟩ => show win0_7.index t (0 : Fin 2) * 1 + 1 * p.val = p.val; rw [h0]; omega
  | ⟨1, _⟩ => show win0_7.index t (1 : Fin 2) * 64 + 1 * k.val = k.val; rw [h1]; omega

/-- Window 8's block at point `t`: its whole array. -/
theorem iblk8_apply (c : Dev nD) (t : Fin cfg0.N) (p : Fin 64) (k : Fin 128) :
    (iblk m c 8 t : FVec Ideal S64x128 .bf16) (ix2 p k) = (V m c main_v8 : S64x128.Idx → EReal) (ix2 p k) := by
  obtain ⟨h0, h1⟩ := idx8 t
  unfold iblk
  rw [View.read_apply]
  show V m c main_v8 _ = _
  refine congrArg (V m c main_v8) (funext fun a => Fin.ext ?_)
  match a with
  | ⟨0, _⟩ => show win0_8.index t (0 : Fin 2) * 64 + 1 * p.val = p.val; rw [h0]; omega
  | ⟨1, _⟩ => show win0_8.index t (1 : Fin 2) * 128 + 1 * k.val = k.val; rw [h1]; omega

/-- Window 9's block at point `t`: its whole array. -/
theorem iblk9_apply (c : Dev nD) (t : Fin cfg0.N) (p : Fin 1) (k : Fin 128) :
    (iblk m c 9 t : FVec Ideal S1x128 .f32) (ix2 p k) = (V m c main_v10 : S1x128.Idx → EReal) (ix2 p k) := by
  obtain ⟨h0, h1⟩ := idx9 t
  unfold iblk
  rw [View.read_apply]
  show V m c main_v10 _ = _
  refine congrArg (V m c main_v10) (funext fun a => Fin.ext ?_)
  match a with
  | ⟨0, _⟩ => show win0_9.index t (0 : Fin 2) * 1 + 1 * p.val = p.val; rw [h0]; omega
  | ⟨1, _⟩ => show win0_9.index t (1 : Fin 2) * 128 + 1 * k.val = k.val; rw [h1]; omega

/-! ## What a point writes back -/

/-- Row `p` of the hidden-state block that point `t` stores is row `2048·t + p` of the result array. -/
theorem point10 (c : Dev nD) (t : Fin cfg0.N) (p : Fin 2048) (q : Fin 128) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = resH (arg0 m c) (arg1 m c) (arg2 m c) (arg3 m c) (arg4 m c) (arg5 m c) (arg6 m c) (arg7 m c) (arg8 m c) (arg9 m c) (arg10 m c) (arg11 m c) (ix2 (rowIdx t p) q) := by
  refine (out10_apply (iblk m c 0 t) (iblk m c 1 t) (iblk m c 2 t) (iblk m c 3 t) (iblk m c 4 t) (iblk m c 5 t) (iblk m c 6 t) (iblk m c 7 t) (iblk m c 8 t) (iblk m c 9 t) p q).trans ?_
  show _ = rowH (arg0 m c) (arg1 m c) (arg2 m c) (arg3 m c) (arg4 m c) (arg5 m c) (arg6 m c) (arg7 m c) (arg8 m c) (arg9 m c) (arg10 m c) (arg11 m c) (rowIdx t p) q
  unfold rowH rowGates rowField gatesK fodeK
  simp only [iblk0_apply m c t, iblk1_apply m c t, iblk2_apply m c t, iblk3_apply m c t, iblk4_apply m c t, iblk5_apply m c t, iblk6_apply m c t, iblk7_apply m c t, iblk8_apply m c t, iblk9_apply m c t]
  have w2 : (fun (k : Fin 192) (j : Fin 512) => (V m c main_v2 : S192x512.Idx → EReal) (ix2 k j))
      = fun k j => catRow (fun a => arg4 m c (ix2 j a)) (fun a => arg6 m c (ix2 j a)) k :=
    funext fun k => funext fun j => V_v2_apply m c k j
  have w4 : (fun j : Fin 512 => (V m c main_v4 : S1x512.Idx → EReal) (ix2 (0 : Fin 1) j))
      = fun j => arg5 m c (ix1 j) + arg7 m c (ix1 j) := funext fun j => V_v4_apply m c j
  have w6 : (fun (k : Fin 64) (l : Fin 128) => (V m c main_v6 : S128x64.Idx → EReal) (ix2 l k))
      = fun k l => arg8 m c (ix2 k l) := funext fun k => funext fun l => V_v6_apply m c l k
  have w9 : (fun k : Fin 64 => (V m c main_v9 : S1x64.Idx → EReal) (ix2 (0 : Fin 1) k)) = fun k => arg9 m c (ix1 k) :=
    funext fun k => V_v9_apply m c k
  have w8 : (fun (q : Fin 128) (k : Fin 64) => (V m c main_v8 : S64x128.Idx → EReal) (ix2 k q))
      = fun q k => arg10 m c (ix2 q k) := funext fun q => funext fun k => V_v8_apply m c k q
  have w10 : (fun q : Fin 128 => (V m c main_v10 : S1x128.Idx → EReal) (ix2 (0 : Fin 1) q)) = fun q => arg11 m c (ix1 q) :=
    funext fun q => V_v10_apply m c q
  rw [w2, w4, w6, w9, w8, w10, V_v11_apply]

/-- Row `p` of the cell-state block that point `t` stores is row `2048·t + p` of the result array. -/
theorem point11 (c : Dev nD) (t : Fin cfg0.N) (p : Fin 2048) (q : Fin 128) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p q) = resC (arg0 m c) (arg1 m c) (arg2 m c) (arg4 m c) (arg5 m c) (arg6 m c) (arg7 m c) (ix2 (rowIdx t p) q) := by
  refine (out11_apply (iblk m c 0 t) (iblk m c 1 t) (iblk m c 2 t) (iblk m c 3 t) (iblk m c 4 t) (iblk m c 5 t) (iblk m c 6 t) (iblk m c 7 t) (iblk m c 8 t) (iblk m c 9 t) p q).trans ?_
  show _ = rowC (arg0 m c) (arg1 m c) (arg2 m c) (arg4 m c) (arg5 m c) (arg6 m c) (arg7 m c) (rowIdx t p) q
  unfold rowC rowGates gatesK
  simp only [iblk0_apply m c t, iblk1_apply m c t, iblk2_apply m c t, iblk3_apply m c t, iblk4_apply m c t, iblk5_apply m c t, iblk6_apply m c t, iblk7_apply m c t, iblk8_apply m c t, iblk9_apply m c t]
  have w2 : (fun (k : Fin 192) (j : Fin 512) => (V m c main_v2 : S192x512.Idx → EReal) (ix2 k j))
      = fun k j => catRow (fun a => arg4 m c (ix2 j a)) (fun a => arg6 m c (ix2 j a)) k :=
    funext fun k => funext fun j => V_v2_apply m c k j
  have w4 : (fun j : Fin 512 => (V m c main_v4 : S1x512.Idx → EReal) (ix2 (0 : Fin 1) j))
      = fun j => arg5 m c (ix1 j) + arg7 m c (ix1 j) := funext fun j => V_v4_apply m c j
  rw [w2, w4]

/-- Where an entry of point `t`'s block sits in a result array. -/
theorem emb10 (t : Fin cfg0.N) (p : Fin 2048) (q : Fin 128) :
    ((cfg0.win 10).blk t).view.emb (ix2 p q) = (ix2 (rowIdx t p) q : S65536x128.Idx) := by
  obtain ⟨h0, h1⟩ := idx10 t
  funext a; apply Fin.ext
  match a with
  | ⟨0, _⟩ => show win0_10.index t (0 : Fin 2) * 2048 + 1 * p.val = t.val * 2048 + p.val; rw [h0]; omega
  | ⟨1, _⟩ => show win0_10.index t (1 : Fin 2) * 128 + 1 * q.val = q.val; rw [h1]; omega

theorem emb11 (t : Fin cfg0.N) (p : Fin 2048) (q : Fin 128) :
    ((cfg0.win 11).blk t).view.emb (ix2 p q) = (ix2 (rowIdx t p) q : S65536x128.Idx) := by
  obtain ⟨h0, h1⟩ := idx11 t
  funext a; apply Fin.ext
  match a with
  | ⟨0, _⟩ => show win0_11.index t (0 : Fin 2) * 2048 + 1 * p.val = t.val * 2048 + p.val; rw [h0]; omega
  | ⟨1, _⟩ => show win0_11.index t (1 : Fin 2) * 128 + 1 * q.val = q.val; rw [h1]; omega

/-- What point `t` writes back to the hidden-state result is block `t` of the result array. -/
theorem flushed10_eq (c : Dev nD) (t : Fin cfg0.N) :
    (dats m 0 c).flushed 10 t = ((cfg0.win 10).blk t).view.read (Elt Ideal) (resH (arg0 m c) (arg1 m c) (arg2 m c) (arg3 m c) (arg4 m c) (arg5 m c) (arg6 m c) (arg7 m c) (arg8 m c) (arg9 m c) (arg10 m c) (arg11 m c)) := by
  rw [Cert.KernelIdeal.Value.flushed10]
  funext y
  obtain ⟨p, q, rfl⟩ : ∃ (p : Fin 2048) (q : Fin 128), y = ix2 p q := ⟨y 0, y 1, eq_ix2 y⟩
  rw [View.read_apply, emb10]
  exact point10 m c t p q

/-- What point `t` writes back to the cell-state result is block `t` of the result array. -/
theorem flushed11_eq (c : Dev nD) (t : Fin cfg0.N) :
    (dats m 0 c).flushed 11 t = ((cfg0.win 11).blk t).view.read (Elt Ideal) (resC (arg0 m c) (arg1 m c) (arg2 m c) (arg4 m c) (arg5 m c) (arg6 m c) (arg7 m c)) := by
  rw [Cert.KernelIdeal.Value.flushed11]
  funext y
  obtain ⟨p, q, rfl⟩ : ∃ (p : Fin 2048) (q : Fin 128), y = ix2 p q := ⟨y 0, y 1, eq_ix2 y⟩
  rw [View.read_apply, emb11]
  exact point11 m c t p q

/-! ## The blocks cover the arrays -/

/-- An index of a result array is in point `t`'s block iff each coordinate is in the block's range on its axis. -/
theorem mem_blk10 (t : Fin cfg0.N) (i : S65536x128.Idx) :
    i ∈ ((cfg0.win 10).blk t).view.set ↔ ∀ a : Fin 2, win0_10.index t a * S2048x128.size a ≤ (i a).val
      ∧ (i a).val < win0_10.index t a * S2048x128.size a + S2048x128.size a := by
  show i ∈ ((View.whole main_v12_0).slice (win0_10.rect t)).set ↔ _
  rw [View.set_slice_whole, Rect.mem_set_unit]
  exact Iff.rfl

theorem mem_blk11 (t : Fin cfg0.N) (i : S65536x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v12_1).slice (win0_11.rect t)).set ↔ _
  rw [View.set_slice_whole, Rect.mem_set_unit]
  exact Iff.rfl

/-- Row `r` lies in the block of point `r / 2048`. -/
theorem cover10 (i : S65536x128.Idx) :
    ∃ t : Fin cfg0.N, (cfg0.win 10).flush t = true ∧ i ∈ ((cfg0.win 10).blk t).view.set := by
  have hN : cfg0.N = 32 := N_0
  have hi0 : (i 0).val < 65536 := (i 0).isLt
  have hi1 : (i 1).val < 128 := (i 1).isLt
  obtain ⟨h0, h1⟩ := idx10 ⟨(i 0).val / 2048, by omega⟩
  refine ⟨⟨(i 0).val / 2048, by omega⟩, flush0_10 _, ?_⟩
  rw [mem_blk10]
  intro a
  match a with
  | ⟨0, _⟩ =>
    show win0_10.index ⟨(i 0).val / 2048, _⟩ (0 : Fin 2) * 2048 ≤ (i 0).val
      ∧ (i 0).val < win0_10.index ⟨(i 0).val / 2048, _⟩ (0 : Fin 2) * 2048 + 2048
    rw [h0]; show (i 0).val / 2048 * 2048 ≤ (i 0).val ∧ (i 0).val < (i 0).val / 2048 * 2048 + 2048; omega
  | ⟨1, _⟩ =>
    show win0_10.index ⟨(i 0).val / 2048, _⟩ (1 : Fin 2) * 128 ≤ (i 1).val
      ∧ (i 1).val < win0_10.index ⟨(i 0).val / 2048, _⟩ (1 : Fin 2) * 128 + 128
    rw [h1]; omega

theorem cover11 (i : S65536x128.Idx) :
    ∃ t : Fin cfg0.N, (cfg0.win 11).flush t = true ∧ i ∈ ((cfg0.win 11).blk t).view.set := by
  have hN : cfg0.N = 32 := N_0
  have hi0 : (i 0).val < 65536 := (i 0).isLt
  have hi1 : (i 1).val < 128 := (i 1).isLt
  obtain ⟨h0, h1⟩ := idx11 ⟨(i 0).val / 2048, by omega⟩
  refine ⟨⟨(i 0).val / 2048, by omega⟩, flush0_11 _, ?_⟩
  rw [mem_blk11]
  intro a
  match a with
  | ⟨0, _⟩ =>
    show win0_11.index ⟨(i 0).val / 2048, _⟩ (0 : Fin 2) * 2048 ≤ (i 0).val
      ∧ (i 0).val < win0_11.index ⟨(i 0).val / 2048, _⟩ (0 : Fin 2) * 2048 + 2048
    rw [h0]; show (i 0).val / 2048 * 2048 ≤ (i 0).val ∧ (i 0).val < (i 0).val / 2048 * 2048 + 2048; omega
  | ⟨1, _⟩ =>
    show win0_11.index ⟨(i 0).val / 2048, _⟩ (1 : Fin 2) * 128 ≤ (i 1).val
      ∧ (i 1).val < win0_11.index ⟨(i 0).val / 2048, _⟩ (1 : Fin 2) * 128 + 128
    rw [h1]; omega

/-! ## The result arrays after the run -/

theorem final10 (c : Dev nD) : (dats m 0 c).arrAt 10 cfg0.N = resH (arg0 m c) (arg1 m c) (arg2 m c) (arg3 m c) (arg4 m c) (arg5 m c) (arg6 m c) (arg7 m c) (arg8 m c) (arg9 m c) (arg10 m c) (arg11 m c) :=
  (dats m 0 c).arrAt_eq_of_cover 10 (resH (arg0 m c) (arg1 m c) (arg2 m c) (arg3 m c) (arg4 m c) (arg5 m c) (arg6 m c) (arg7 m c) (arg8 m c) (arg9 m c) (arg10 m c) (arg11 m c)) (fun t _ => flushed10_eq m c t) cover10

theorem final11 (c : Dev nD) : (dats m 0 c).arrAt 11 cfg0.N = resC (arg0 m c) (arg1 m c) (arg2 m c) (arg4 m c) (arg5 m c) (arg6 m c) (arg7 m c) :=
  (dats m 0 c).arrAt_eq_of_cover 11 (resC (arg0 m c) (arg1 m c) (arg2 m c) (arg4 m c) (arg5 m c) (arg6 m c) (arg7 m c)) (fun t _ => flushed11_eq m c t) cover11

/-- The kernel's run: the two result arrays at the arrays of Proof/Result.lean of the arguments, the arguments unchanged. -/
theorem run : θ_run defs (onTc (τ := τ) (main (F := Ideal))) ⟨m, fun _ => 0, ρ⟩ fun r => ∀ c : Dev nD,
      r.2.mem ((c : Thread nD τ).loc main_v12_0) = resH (arg0 m c) (arg1 m c) (arg2 m c) (arg3 m c) (arg4 m c) (arg5 m c) (arg6 m c) (arg7 m c) (arg8 m c) (arg9 m c) (arg10 m c) (arg11 m c)
      ∧ r.2.mem ((c : Thread nD τ).loc main_v12_1) = resC (arg0 m c) (arg1 m c) (arg2 m c) (arg4 m c) (arg5 m c) (arg6 m c) (arg7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final10 m c), (h c).2.1.trans (final11 m c), (h c).2.2⟩)
    (Cert.KernelIdeal.Value.run_blocks m ρ)

end Cert.KernelIdeal.Rows

end
-- ==== Proof.RDots.lean ====
/-
  The reference's four matrix products read at an index. On the host a `dot_general` that contracts the left operand's
  columns with the right operand's rows is, at the ideal values, the plain sum over `k` of `L (p, k) · R (k, j)` at
  entry `(p, j)`: the contraction index of the dimension record is its one coordinate, and the operand indices at
  `(p, j)` and `k` are `(p, k)` and `(k, j)`.
-/
import proofs.«114038_j40458591928886_2_alg».proof.Proof.Gen.ReferenceIdeal
import Idealize.ShloMosaic.Lib.ValueIdx
import Idealize.ShloMosaic.PureOps.Ideal.Laws

noncomputable section

namespace Cert.ReferenceIdeal.Rows

open Cert.ReferenceIdeal Cert.ReferenceIdeal.Gen Idealize.ShloMosaic Idealize.ShloMosaic.ValueIdx
open scoped BigOperators

/-! ## [65536, 64] × [64, 512]: the input's share of the gates -/

theorem lhs0_x (i : S65536x512.Idx) (q : dot_S65536x64_S64x512_S65536x512_1_0_0_1_n_n.contr.Idx) : (dot_S65536x64_S64x512_S65536x512_1_0_0_1_n_n.lhsIdx i q 0).val = (i 0).val := by
  unfold DotDims.lhsIdx
  rw [dif_neg (show ¬(0 : Fin S65536x64.rank) ∈ dot_S65536x64_S64x512_S65536x512_1_0_0_1_n_n.lhsBatch by decide), dif_pos (show (0 : Fin S65536x64.rank) ∈ dot_S65536x64_S64x512_S65536x512_1_0_0_1_n_n.lhsNonContracting by decide)]
  rfl
theorem lhs1_x (i : S65536x512.Idx) (q : dot_S65536x64_S64x512_S65536x512_1_0_0_1_n_n.contr.Idx) : (dot_S65536x64_S64x512_S65536x512_1_0_0_1_n_n.lhsIdx i q 1).val = (q ⟨0, by decide⟩).val :=
  dot_S65536x64_S64x512_S65536x512_1_0_0_1_n_n.lhsIdx_val_of_single rfl i q
theorem rhs0_x (i : S65536x512.Idx) (q : dot_S65536x64_S64x512_S65536x512_1_0_0_1_n_n.contr.Idx) : (dot_S65536x64_S64x512_S65536x512_1_0_0_1_n_n.rhsIdx i q 0).val = (q ⟨0, by decide⟩).val :=
  dot_S65536x64_S64x512_S65536x512_1_0_0_1_n_n.rhsIdx_val_of_single rfl i q
theorem rhs1_x (i : S65536x512.Idx) (q : dot_S65536x64_S64x512_S65536x512_1_0_0_1_n_n.contr.Idx) : (dot_S65536x64_S64x512_S65536x512_1_0_0_1_n_n.rhsIdx i q 1).val = (i 1).val := by
  unfold DotDims.rhsIdx
  rw [dif_neg (show ¬(1 : Fin S64x512.rank) ∈ dot_S65536x64_S64x512_S65536x512_1_0_0_1_n_n.rhsBatch by decide), dif_pos (show (1 : Fin S64x512.rank) ∈ dot_S65536x64_S64x512_S65536x512_1_0_0_1_n_n.rhsNonContracting by decide)]
  rfl

/-- The [65536, 64] × [64, 512] product at `(p, j)`: the sum over `k` of `L (p, k) · R (k, j)`. -/
theorem dot_gates_x_apply (L : FVec Ideal S65536x64 .f32) (R : FVec Ideal S64x512 .f32) (p : Fin 65536) (j : Fin 512) :
    Host.dotGeneral dot_S65536x64_S64x512_S65536x512_1_0_0_1_n_n none L R (ix2 p j) = ∑ k : Fin 64, L (ix2 p k) * R (ix2 k j) := by
  simp only [Host.dotGeneral]
  rw [Ideal.dotGeneral_apply, ← Equiv.sum_comp (contrEquiv1 dot_S65536x64_S64x512_S65536x512_1_0_0_1_n_n 64 rfl rfl).symm]
  refine Finset.sum_congr rfl fun k _ => ?_
  have hk := contrEquiv1_symm_val dot_S65536x64_S64x512_S65536x512_1_0_0_1_n_n 64 rfl rfl k
  have el : dot_S65536x64_S64x512_S65536x512_1_0_0_1_n_n.lhsIdx (ix2 p j) ((contrEquiv1 dot_S65536x64_S64x512_S65536x512_1_0_0_1_n_n 64 rfl rfl).symm k) = ix2 p k := funext fun a => Fin.ext (by
    match a with
    | ⟨0, _⟩ => exact lhs0_x _ _
    | ⟨1, _⟩ => exact (lhs1_x _ _).trans hk)
  have er : dot_S65536x64_S64x512_S65536x512_1_0_0_1_n_n.rhsIdx (ix2 p j) ((contrEquiv1 dot_S65536x64_S64x512_S65536x512_1_0_0_1_n_n 64 rfl rfl).symm k) = ix2 k j := funext fun a => Fin.ext (by
    match a with
    | ⟨0, _⟩ => exact (rhs0_x _ _).trans hk
    | ⟨1, _⟩ => exact rhs1_x _ _)
  rw [el, er]

/-! ## [65536, 128] × [128, 512]: the hidden state's share of the gates -/

theorem lhs0_h (i : S65536x512.Idx) (q : dot_S65536x128_S128x512_S65536x512_1_0_0_1_n_n.contr.Idx) : (dot_S65536x128_S128x512_S65536x512_1_0_0_1_n_n.lhsIdx i q 0).val = (i 0).val := by
  unfold DotDims.lhsIdx
  rw [dif_neg (show ¬(0 : Fin S65536x128.rank) ∈ dot_S65536x128_S128x512_S65536x512_1_0_0_1_n_n.lhsBatch by decide), dif_pos (show (0 : Fin S65536x128.rank) ∈ dot_S65536x128_S128x512_S65536x512_1_0_0_1_n_n.lhsNonContracting by decide)]
  rfl
theorem lhs1_h (i : S65536x512.Idx) (q : dot_S65536x128_S128x512_S65536x512_1_0_0_1_n_n.contr.Idx) : (dot_S65536x128_S128x512_S65536x512_1_0_0_1_n_n.lhsIdx i q 1).val = (q ⟨0, by decide⟩).val :=
  dot_S65536x128_S128x512_S65536x512_1_0_0_1_n_n.lhsIdx_val_of_single rfl i q
theorem rhs0_h (i : S65536x512.Idx) (q : dot_S65536x128_S128x512_S65536x512_1_0_0_1_n_n.contr.Idx) : (dot_S65536x128_S128x512_S65536x512_1_0_0_1_n_n.rhsIdx i q 0).val = (q ⟨0, by decide⟩).val :=
  dot_S65536x128_S128x512_S65536x512_1_0_0_1_n_n.rhsIdx_val_of_single rfl i q
theorem rhs1_h (i : S65536x512.Idx) (q : dot_S65536x128_S128x512_S65536x512_1_0_0_1_n_n.contr.Idx) : (dot_S65536x128_S128x512_S65536x512_1_0_0_1_n_n.rhsIdx i q 1).val = (i 1).val := by
  unfold DotDims.rhsIdx
  rw [dif_neg (show ¬(1 : Fin S128x512.rank) ∈ dot_S65536x128_S128x512_S65536x512_1_0_0_1_n_n.rhsBatch by decide), dif_pos (show (1 : Fin S128x512.rank) ∈ dot_S65536x128_S128x512_S65536x512_1_0_0_1_n_n.rhsNonContracting by decide)]
  rfl

/-- The [65536, 128] × [128, 512] product at `(p, j)`: the sum over `k` of `L (p, k) · R (k, j)`. -/
theorem dot_gates_h_apply (L : FVec Ideal S65536x128 .f32) (R : FVec Ideal S128x512 .f32) (p : Fin 65536) (j : Fin 512) :
    Host.dotGeneral dot_S65536x128_S128x512_S65536x512_1_0_0_1_n_n none L R (ix2 p j) = ∑ k : Fin 128, L (ix2 p k) * R (ix2 k j) := by
  simp only [Host.dotGeneral]
  rw [Ideal.dotGeneral_apply, ← Equiv.sum_comp (contrEquiv1 dot_S65536x128_S128x512_S65536x512_1_0_0_1_n_n 128 rfl rfl).symm]
  refine Finset.sum_congr rfl fun k _ => ?_
  have hk := contrEquiv1_symm_val dot_S65536x128_S128x512_S65536x512_1_0_0_1_n_n 128 rfl rfl k
  have el : dot_S65536x128_S128x512_S65536x512_1_0_0_1_n_n.lhsIdx (ix2 p j) ((contrEquiv1 dot_S65536x128_S128x512_S65536x512_1_0_0_1_n_n 128 rfl rfl).symm k) = ix2 p k := funext fun a => Fin.ext (by
    match a with
    | ⟨0, _⟩ => exact lhs0_h _ _
    | ⟨1, _⟩ => exact (lhs1_h _ _).trans hk)
  have er : dot_S65536x128_S128x512_S65536x512_1_0_0_1_n_n.rhsIdx (ix2 p j) ((contrEquiv1 dot_S65536x128_S128x512_S65536x512_1_0_0_1_n_n 128 rfl rfl).symm k) = ix2 k j := funext fun a => Fin.ext (by
    match a with
    | ⟨0, _⟩ => exact (rhs0_h _ _).trans hk
    | ⟨1, _⟩ => exact rhs1_h _ _)
  rw [el, er]

/-! ## [65536, 128] × [128, 64]: into the hidden layer of the field -/

theorem lhs0_a (i : S65536x64.Idx) (q : dot_S65536x128_S128x64_S65536x64_1_0_0_1_n_n.contr.Idx) : (dot_S65536x128_S128x64_S65536x64_1_0_0_1_n_n.lhsIdx i q 0).val = (i 0).val := by
  unfold DotDims.lhsIdx
  rw [dif_neg (show ¬(0 : Fin S65536x128.rank) ∈ dot_S65536x128_S128x64_S65536x64_1_0_0_1_n_n.lhsBatch by decide), dif_pos (show (0 : Fin S65536x128.rank) ∈ dot_S65536x128_S128x64_S65536x64_1_0_0_1_n_n.lhsNonContracting by decide)]
  rfl
theorem lhs1_a (i : S65536x64.Idx) (q : dot_S65536x128_S128x64_S65536x64_1_0_0_1_n_n.contr.Idx) : (dot_S65536x128_S128x64_S65536x64_1_0_0_1_n_n.lhsIdx i q 1).val = (q ⟨0, by decide⟩).val :=
  dot_S65536x128_S128x64_S65536x64_1_0_0_1_n_n.lhsIdx_val_of_single rfl i q
theorem rhs0_a (i : S65536x64.Idx) (q : dot_S65536x128_S128x64_S65536x64_1_0_0_1_n_n.contr.Idx) : (dot_S65536x128_S128x64_S65536x64_1_0_0_1_n_n.rhsIdx i q 0).val = (q ⟨0, by decide⟩).val :=
  dot_S65536x128_S128x64_S65536x64_1_0_0_1_n_n.rhsIdx_val_of_single rfl i q
theorem rhs1_a (i : S65536x64.Idx) (q : dot_S65536x128_S128x64_S65536x64_1_0_0_1_n_n.contr.Idx) : (dot_S65536x128_S128x64_S65536x64_1_0_0_1_n_n.rhsIdx i q 1).val = (i 1).val := by
  unfold DotDims.rhsIdx
  rw [dif_neg (show ¬(1 : Fin S128x64.rank) ∈ dot_S65536x128_S128x64_S65536x64_1_0_0_1_n_n.rhsBatch by decide), dif_pos (show (1 : Fin S128x64.rank) ∈ dot_S65536x128_S128x64_S65536x64_1_0_0_1_n_n.rhsNonContracting by decide)]
  rfl

/-- The [65536, 128] × [128, 64] product at `(p, j)`: the sum over `k` of `L (p, k) · R (k, j)`. -/
theorem dot_in_apply (L : FVec Ideal S65536x128 .f32) (R : FVec Ideal S128x64 .f32) (p : Fin 65536) (j : Fin 64) :
    Host.dotGeneral dot_S65536x128_S128x64_S65536x64_1_0_0_1_n_n none L R (ix2 p j) = ∑ k : Fin 128, L (ix2 p k) * R (ix2 k j) := by
  simp only [Host.dotGeneral]
  rw [Ideal.dotGeneral_apply, ← Equiv.sum_comp (contrEquiv1 dot_S65536x128_S128x64_S65536x64_1_0_0_1_n_n 128 rfl rfl).symm]
  refine Finset.sum_congr rfl fun k _ => ?_
  have hk := contrEquiv1_symm_val dot_S65536x128_S128x64_S65536x64_1_0_0_1_n_n 128 rfl rfl k
  have el : dot_S65536x128_S128x64_S65536x64_1_0_0_1_n_n.lhsIdx (ix2 p j) ((contrEquiv1 dot_S65536x128_S128x64_S65536x64_1_0_0_1_n_n 128 rfl rfl).symm k) = ix2 p k := funext fun a => Fin.ext (by
    match a with
    | ⟨0, _⟩ => exact lhs0_a _ _
    | ⟨1, _⟩ => exact (lhs1_a _ _).trans hk)
  have er : dot_S65536x128_S128x64_S65536x64_1_0_0_1_n_n.rhsIdx (ix2 p j) ((contrEquiv1 dot_S65536x128_S128x64_S65536x64_1_0_0_1_n_n 128 rfl rfl).symm k) = ix2 k j := funext fun a => Fin.ext (by
    match a with
    | ⟨0, _⟩ => exact (rhs0_a _ _).trans hk
    | ⟨1, _⟩ => exact rhs1_a _ _)
  rw [el, er]

/-! ## [65536, 64] × [64, 128]: out of the hidden layer -/

theorem lhs0_b (i : S65536x128.Idx) (q : dot_S65536x64_S64x128_S65536x128_1_0_0_1_n_n.contr.Idx) : (dot_S65536x64_S64x128_S65536x128_1_0_0_1_n_n.lhsIdx i q 0).val = (i 0).val := by
  unfold DotDims.lhsIdx
  rw [dif_neg (show ¬(0 : Fin S65536x64.rank) ∈ dot_S65536x64_S64x128_S65536x128_1_0_0_1_n_n.lhsBatch by decide), dif_pos (show (0 : Fin S65536x64.rank) ∈ dot_S65536x64_S64x128_S65536x128_1_0_0_1_n_n.lhsNonContracting by decide)]
  rfl
theorem lhs1_b (i : S65536x128.Idx) (q : dot_S65536x64_S64x128_S65536x128_1_0_0_1_n_n.contr.Idx) : (dot_S65536x64_S64x128_S65536x128_1_0_0_1_n_n.lhsIdx i q 1).val = (q ⟨0, by decide⟩).val :=
  dot_S65536x64_S64x128_S65536x128_1_0_0_1_n_n.lhsIdx_val_of_single rfl i q
theorem rhs0_b (i : S65536x128.Idx) (q : dot_S65536x64_S64x128_S65536x128_1_0_0_1_n_n.contr.Idx) : (dot_S65536x64_S64x128_S65536x128_1_0_0_1_n_n.rhsIdx i q 0).val = (q ⟨0, by decide⟩).val :=
  dot_S65536x64_S64x128_S65536x128_1_0_0_1_n_n.rhsIdx_val_of_single rfl i q
theorem rhs1_b (i : S65536x128.Idx) (q : dot_S65536x64_S64x128_S65536x128_1_0_0_1_n_n.contr.Idx) : (dot_S65536x64_S64x128_S65536x128_1_0_0_1_n_n.rhsIdx i q 1).val = (i 1).val := by
  unfold DotDims.rhsIdx
  rw [dif_neg (show ¬(1 : Fin S64x128.rank) ∈ dot_S65536x64_S64x128_S65536x128_1_0_0_1_n_n.rhsBatch by decide), dif_pos (show (1 : Fin S64x128.rank) ∈ dot_S65536x64_S64x128_S65536x128_1_0_0_1_n_n.rhsNonContracting by decide)]
  rfl

/-- The [65536, 64] × [64, 128] product at `(p, j)`: the sum over `k` of `L (p, k) · R (k, j)`. -/
theorem dot_out_apply (L : FVec Ideal S65536x64 .f32) (R : FVec Ideal S64x128 .f32) (p : Fin 65536) (j : Fin 128) :
    Host.dotGeneral dot_S65536x64_S64x128_S65536x128_1_0_0_1_n_n none L R (ix2 p j) = ∑ k : Fin 64, L (ix2 p k) * R (ix2 k j) := by
  simp only [Host.dotGeneral]
  rw [Ideal.dotGeneral_apply, ← Equiv.sum_comp (contrEquiv1 dot_S65536x64_S64x128_S65536x128_1_0_0_1_n_n 64 rfl rfl).symm]
  refine Finset.sum_congr rfl fun k _ => ?_
  have hk := contrEquiv1_symm_val dot_S65536x64_S64x128_S65536x128_1_0_0_1_n_n 64 rfl rfl k
  have el : dot_S65536x64_S64x128_S65536x128_1_0_0_1_n_n.lhsIdx (ix2 p j) ((contrEquiv1 dot_S65536x64_S64x128_S65536x128_1_0_0_1_n_n 64 rfl rfl).symm k) = ix2 p k := funext fun a => Fin.ext (by
    match a with
    | ⟨0, _⟩ => exact lhs0_b _ _
    | ⟨1, _⟩ => exact (lhs1_b _ _).trans hk)
  have er : dot_S65536x64_S64x128_S65536x128_1_0_0_1_n_n.rhsIdx (ix2 p j) ((contrEquiv1 dot_S65536x64_S64x128_S65536x128_1_0_0_1_n_n 64 rfl rfl).symm k) = ix2 k j := funext fun a => Fin.ext (by
    match a with
    | ⟨0, _⟩ => exact (rhs0_b _ _).trans hk
    | ⟨1, _⟩ => exact rhs1_b _ _)
  rw [el, er]

end Cert.ReferenceIdeal.Rows

end
-- ==== Proof.LibColumnLayout.lean ====
/-
  Layout operations of column-shaped arrays read at an index: an array `[M]` broadcast to a column `[M, 1]`, a
  column `[M, 1]` broadcast along rows to `[M, C]`, a scalar broadcast to any shape, a one-element array
  broadcast to a column, and the casts between `[N]` and `[N, 1]`. Each reads the operand at the evident index;
  stated over generic extents so that they serve every array of these forms.
-/
import Idealize.ShloMosaic.Lib.Pipeline.Value
import Idealize.ShloMosaic.Lib.ValueIdx

noncomputable section

open Idealize.ShloMosaic Idealize.ShloMosaic.ValueIdx

namespace ColumnLayout

variable {α : Type}

/-- An array `[M]` broadcast to the column `[M, 1]` reads, at `(e, u)`, the operand at `e`. -/
theorem bcast_col_apply {M : ℕ} (h : (⟨1, ![M]⟩ : Shape).BroadcastsInDim ⟨2, ![M, 1]⟩ ![0])
    (x : (⟨1, ![M]⟩ : Shape).Idx → α) (e : Fin M) (u : Fin 1) :
    broadcastInDim ⟨2, ![M, 1]⟩ ![0] h x (ix2 e u) = x (ix1 e) := by
  refine broadcastInDim_apply _ h x (ix2 e u) (ix1 e) fun a => ?_
  match a with
  | ⟨0, _⟩ =>
    show e.val = if M = 1 then 0 else e.val
    split
    · have := e.isLt; omega
    · rfl

/-- A column `[M, 1]` broadcast along its rows to `[M, C]` reads, at `(e, k)`, the operand at `(e, 0)`. -/
theorem bcast_rows_apply {M C : ℕ} (h : (⟨2, ![M, 1]⟩ : Shape).BroadcastsInDim ⟨2, ![M, C]⟩ ![0, 1])
    (x : (⟨2, ![M, 1]⟩ : Shape).Idx → α) (e : Fin M) (k : Fin C) :
    broadcastInDim ⟨2, ![M, C]⟩ ![0, 1] h x (ix2 e k) = x (ix2 e (0 : Fin 1)) := by
  refine broadcastInDim_apply _ h x (ix2 e k) (ix2 e (0 : Fin 1)) fun a => ?_
  match a with
  | ⟨0, _⟩ =>
    show e.val = if M = 1 then 0 else e.val
    split
    · have := e.isLt; omega
    · rfl
  | ⟨1, _⟩ =>
    show 0 = if (1 : ℕ) = 1 then 0 else k.val
    rw [if_pos rfl]

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply _ h x j ix0 fun a => a.elim0

/-- A one-element array `[1]` placed as `[1, 1]` and broadcast down a column `[N, 1]` reads its one element. -/
theorem bcast_one_col_apply {N : ℕ} (h1 : (⟨1, ![1]⟩ : Shape).BroadcastsInDim ⟨2, ![1, 1]⟩ ![1])
    (h2 : (⟨2, ![1, 1]⟩ : Shape).BroadcastsInDim ⟨2, ![N, 1]⟩ ![0, 1])
    (x : (⟨1, ![1]⟩ : Shape).Idx → α) (r : Fin N) (u : Fin 1) :
    broadcastInDim ⟨2, ![N, 1]⟩ ![0, 1] h2 (broadcastInDim ⟨2, ![1, 1]⟩ ![1] h1 x) (ix2 r u) = x (ix1 (0 : Fin 1)) := by
  refine (broadcastInDim_apply _ h2 _ (ix2 r u) (ix2 (0 : Fin 1) (0 : Fin 1)) fun a => ?_).trans ?_
  · match a with
    | ⟨0, _⟩ => show 0 = if (1 : ℕ) = 1 then 0 else r.val; rw [if_pos rfl]
    | ⟨1, _⟩ => show 0 = if (1 : ℕ) = 1 then 0 else u.val; rw [if_pos rfl]
  · refine broadcastInDim_apply _ h1 x (ix2 (0 : Fin 1) (0 : Fin 1)) (ix1 (0 : Fin 1)) fun a => ?_
    match a with
    | ⟨0, _⟩ => show 0 = if (1 : ℕ) = 1 then 0 else 0; rw [if_pos rfl]

/-- A column `[N, 1]` cast to `[N]` reads, at `r`, the operand at `(r, 0)`. -/
theorem cast_col_flat_apply {N : ℕ} (h : (⟨2, ![N, 1]⟩ : Shape).ShapeCasts ⟨1, ![N]⟩)
    (x : (⟨2, ![N, 1]⟩ : Shape).Idx → α) (r : Fin N) :
    shapeCast ⟨1, ![N]⟩ x h (ix1 r) = x (ix2 r (0 : Fin 1)) :=
  shapeCast_apply x h _ _ (by
    rw [Shape.rowMajor_val_two, Shape.rowMajor_val_one]
    show r.val * 1 + 0 = r.val
    omega)

end ColumnLayout

end
-- ==== Proof.RGates.lean ====
/-
  The reference's LSTM cell on all 65536 rows at once, read row by row.

  Every stage is either pointwise, a broadcast of a bias row, or a matrix product that contracts along a row; so each
  stage read at entry `(r, q)` is the specification's row function of row `r` of the arguments: the split gate
  pre-activations, the logistic function spelt through the exponential, the new cell state and the hidden state.
-/
import proofs.«114038_j40458591928886_2_alg».proof.Proof.Gen.ReferenceIdeal.Read
import proofs.«114038_j40458591928886_2_alg».proof.Proof.Result
import proofs.«114038_j40458591928886_2_alg».proof.Proof.RDots
import proofs.«114038_j40458591928886_2_alg».proof.Proof.LibColumnLayout
import Idealize.ShloMosaic.Lib.ValueLayout
import Idealize.ShloMosaic.Lib.Pipeline.Value

noncomputable section

namespace Cert.ReferenceIdeal.Rows

open Cert.ReferenceIdeal Cert.ReferenceIdeal.Gen Cert.ReferenceIdeal.Read Idealize.ShloMosaic Idealize.ShloMosaic.ValueIdx
open Cert.OdeLstm
open scoped BigOperators

variable (x0 : FVec Ideal S65536x64 .f32) (x1 x2 : FVec Ideal S65536x128 .f32) (x3 : FVec Ideal S65536 .f32)
  (x4 : FVec Ideal S512x64 .f32) (x5 : FVec Ideal S512 .f32) (x6 : FVec Ideal S512x128 .f32) (x7 : FVec Ideal S512 .f32)
  (x8 : FVec Ideal S64x128 .f32) (x9 : FVec Ideal S64 .f32) (x10 : FVec Ideal S128x64 .f32) (x11 : FVec Ideal S128 .f32)

/-! ## The gates -/

/-- The weights' transposes and the bias rows, read at an index. -/
theorem v0_at (k : Fin 64) (j : Fin 512) : val_main_v0 (F := Ideal) x4 (ix2 k j) = x4 (ix2 j k) := by
  unfold val_main_v0; exact transpose_ix2_apply x4 _ k j

theorem v5_at (k : Fin 128) (j : Fin 512) : val_main_v5 (F := Ideal) x6 (ix2 k j) = x6 (ix2 j k) := by
  unfold val_main_v5; exact transpose_ix2_apply x6 _ k j

theorem v3_at (r : Fin 65536) (j : Fin 512) : val_main_v3 (F := Ideal) x5 (ix2 r j) = x5 (ix1 j) := by
  rw [val_main_v3_apply, val_main_v2_apply]
  exact congrArg x5 (funext fun a => by match a with | ⟨0, _⟩ => rfl)

theorem v9_at (r : Fin 65536) (j : Fin 512) : val_main_v9 (F := Ideal) x7 (ix2 r j) = x7 (ix1 j) := by
  rw [val_main_v9_apply, val_main_v8_apply]
  exact congrArg x7 (funext fun a => by match a with | ⟨0, _⟩ => rfl)

/-- Gate `j` of row `r`: x·W_ihᵀ + b_ih + h0·W_hhᵀ + b_hh. -/
theorem gates_at (r : Fin 65536) (j : Fin 512) : val_main_v10 (F := Ideal) x0 x1 x4 x5 x6 x7 (ix2 r j) = rowGatesSplit x0 x1 x4 x5 x6 x7 r j := by
  show (Host.dotGeneral dot_S65536x64_S64x512_S65536x512_1_0_0_1_n_n none x0 (val_main_v0 (F := Ideal) x4)) (ix2 r j)
      + val_main_v3 (F := Ideal) x5 (ix2 r j)
      + (Host.dotGeneral dot_S65536x128_S128x512_S65536x512_1_0_0_1_n_n none x1 (val_main_v5 (F := Ideal) x6)) (ix2 r j)
      + val_main_v9 (F := Ideal) x7 (ix2 r j) = _
  rw [dot_gates_x_apply, dot_gates_h_apply, v3_at, v9_at]
  simp only [v0_at, v5_at]
  rfl

/-- The four gate slices. -/
theorem v11_at (r : Fin 65536) (q : Fin 128) : val_main_v11 (F := Ideal) x0 x1 x4 x5 x6 x7 (ix2 r q) = val_main_v10 (F := Ideal) x0 x1 x4 x5 x6 x7 (ix2 r (gI q)) := by
  show extractStridedSlice S65536x128 ![0, 0] (val_main_v10 (F := Ideal) x0 x1 x4 x5 x6 x7) slices_S65536x512_S65536x128_0_0 (ix2 r q) = _
  exact slice2_axis1_apply 0 _ _ r q (gI q) rfl

theorem v12_at (r : Fin 65536) (q : Fin 128) : val_main_v12 (F := Ideal) x0 x1 x4 x5 x6 x7 (ix2 r q) = val_main_v10 (F := Ideal) x0 x1 x4 x5 x6 x7 (ix2 r (gF q)) := by
  show extractStridedSlice S65536x128 ![0, 128] (val_main_v10 (F := Ideal) x0 x1 x4 x5 x6 x7) slices_S65536x512_S65536x128_0_128 (ix2 r q) = _
  exact slice2_axis1_apply 128 _ _ r q (gF q) rfl

theorem v13_at (r : Fin 65536) (q : Fin 128) : val_main_v13 (F := Ideal) x0 x1 x4 x5 x6 x7 (ix2 r q) = val_main_v10 (F := Ideal) x0 x1 x4 x5 x6 x7 (ix2 r (gG q)) := by
  show extractStridedSlice S65536x128 ![0, 256] (val_main_v10 (F := Ideal) x0 x1 x4 x5 x6 x7) slices_S65536x512_S65536x128_0_256 (ix2 r q) = _
  exact slice2_axis1_apply 256 _ _ r q (gG q) rfl

theorem v14_at (r : Fin 65536) (q : Fin 128) : val_main_v14 (F := Ideal) x0 x1 x4 x5 x6 x7 (ix2 r q) = val_main_v10 (F := Ideal) x0 x1 x4 x5 x6 x7 (ix2 r (gO q)) := by
  show extractStridedSlice S65536x128 ![0, 384] (val_main_v10 (F := Ideal) x0 x1 x4 x5 x6 x7) slices_S65536x512_S65536x128_0_384 (ix2 r q) = _
  exact slice2_axis1_apply 384 _ _ r q (gO q) rfl

/-! ## The cell update -/

/-- The logistic function of the forget gate, spelt 1 / (1 + e^{-v}). -/
theorem v20_at (i : S65536x128.Idx) : val_main_v20 (F := Ideal) x0 x1 x4 x5 x6 x7 i = sigE (val_main_v12 (F := Ideal) x0 x1 x4 x5 x6 x7 i) := by
  show Ideal.div (val_main_v19 (F := Ideal) i) (val_main_v17 (F := Ideal) i + Ideal.exp (-(val_main_v12 (F := Ideal) x0 x1 x4 x5 x6 x7 i))) = _
  rw [val_main_v19_apply, val_main_v17_apply]
  rfl

/-- The logistic function of the input gate, spelt 1 / (1 + e^{-v}). -/
theorem v27_at (i : S65536x128.Idx) : val_main_v27 (F := Ideal) x0 x1 x4 x5 x6 x7 i = sigE (val_main_v11 (F := Ideal) x0 x1 x4 x5 x6 x7 i) := by
  show Ideal.div (val_main_v26 (F := Ideal) i) (val_main_v24 (F := Ideal) i + Ideal.exp (-(val_main_v11 (F := Ideal) x0 x1 x4 x5 x6 x7 i))) = _
  rw [val_main_v26_apply, val_main_v24_apply]
  rfl

/-- The logistic function of the output gate, spelt 1 / (1 + e^{-v}). -/
theorem v36_at (i : S65536x128.Idx) : val_main_v36 (F := Ideal) x0 x1 x4 x5 x6 x7 i = sigE (val_main_v14 (F := Ideal) x0 x1 x4 x5 x6 x7 i) := by
  show Ideal.div (val_main_v35 (F := Ideal) i) (val_main_v33 (F := Ideal) i + Ideal.exp (-(val_main_v14 (F := Ideal) x0 x1 x4 x5 x6 x7 i))) = _
  rw [val_main_v35_apply, val_main_v33_apply]
  rfl

/-- The new cell state at `(r, q)`. -/
theorem c_at (r : Fin 65536) (q : Fin 128) :
    val_main_v30 (F := Ideal) x0 x1 x2 x4 x5 x6 x7 (ix2 r q) = cellC sigE (rowGatesSplit x0 x1 x4 x5 x6 x7 r) (fun l => x2 (ix2 r l)) q := by
  show val_main_v20 (F := Ideal) x0 x1 x4 x5 x6 x7 (ix2 r q) * x2 (ix2 r q)
      + val_main_v27 (F := Ideal) x0 x1 x4 x5 x6 x7 (ix2 r q) * Ideal.tanh (val_main_v13 (F := Ideal) x0 x1 x4 x5 x6 x7 (ix2 r q)) = _
  rw [v20_at, v27_at, v12_at, v11_at, v13_at, gates_at, gates_at, gates_at]
  rfl

/-- The hidden state before the ODE step at `(r, q)`. -/
theorem h_at (r : Fin 65536) (q : Fin 128) :
    val_main_v38 (F := Ideal) x0 x1 x2 x4 x5 x6 x7 (ix2 r q) = cellH sigE (rowGatesSplit x0 x1 x4 x5 x6 x7 r) (fun l => x2 (ix2 r l)) q := by
  show val_main_v36 (F := Ideal) x0 x1 x4 x5 x6 x7 (ix2 r q) * Ideal.tanh (val_main_v30 (F := Ideal) x0 x1 x2 x4 x5 x6 x7 (ix2 r q)) = _
  rw [v36_at, v14_at, gates_at, c_at]
  rfl

end Cert.ReferenceIdeal.Rows

end
-- ==== Proof.RStep.lean ====
/-
  The reference's ODE step on all 65536 rows at once, read row by row, and its two results.

  The field is two matrix products that contract along a row, each followed by a bias row, a hyperbolic tangent
  between them; the Runge–Kutta stages combine fields pointwise with the time span broadcast along each row. So each
  stage read at entry `(r, q)` is the specification's row function of row `r`, and the two results are the arrays
  of Proof/Result.lean, by the two laws of Proof/Spec.lean.
-/
import proofs.«114038_j40458591928886_2_alg».proof.Proof.RGates

noncomputable section

namespace Cert.ReferenceIdeal.Rows

open Cert.ReferenceIdeal Cert.ReferenceIdeal.Gen Cert.ReferenceIdeal.Read Idealize.ShloMosaic Idealize.ShloMosaic.ValueIdx
open Cert.OdeLstm
open scoped BigOperators

variable (x0 : FVec Ideal S65536x64 .f32) (x1 x2 : FVec Ideal S65536x128 .f32) (x3 : FVec Ideal S65536 .f32)
  (x4 : FVec Ideal S512x64 .f32) (x5 : FVec Ideal S512 .f32) (x6 : FVec Ideal S512x128 .f32) (x7 : FVec Ideal S512 .f32)
  (x8 : FVec Ideal S64x128 .f32) (x9 : FVec Ideal S64 .f32) (x10 : FVec Ideal S128x64 .f32) (x11 : FVec Ideal S128 .f32)

/-! ## The field on all rows -/

/-- The field applied to every row of `Y`. -/
def fodeR (Y : FVec Ideal S65536x128 .f32) (w8 : FVec Ideal S64x128 .f32) (w9 : FVec Ideal S64 .f32)
    (w10 : FVec Ideal S128x64 .f32) (w11 : FVec Ideal S128 .f32) : FVec Ideal S65536x128 .f32 :=
  addf (φ := .f32) (Host.dotGeneral (φ₁ := .f32) (φ₂ := .f32) dot_S65536x64_S64x128_S65536x128_1_0_0_1_n_n none
      (Host.tanh (φ := .f32) (addf (φ := .f32)
        (Host.dotGeneral (φ₁ := .f32) (φ₂ := .f32) dot_S65536x128_S128x64_S65536x64_1_0_0_1_n_n none Y (val_main_v40 (F := Ideal) w8))
        (val_main_v43 (F := Ideal) w9)))
      (val_main_v46 (F := Ideal) w10))
    (val_main_v49 (F := Ideal) w11)

theorem v40_at (l : Fin 128) (k : Fin 64) : val_main_v40 (F := Ideal) x8 (ix2 l k) = x8 (ix2 k l) := by
  unfold val_main_v40; exact transpose_ix2_apply x8 _ l k

theorem v46_at (k : Fin 64) (q : Fin 128) : val_main_v46 (F := Ideal) x10 (ix2 k q) = x10 (ix2 q k) := by
  unfold val_main_v46; exact transpose_ix2_apply x10 _ k q

theorem v43_at (r : Fin 65536) (k : Fin 64) : val_main_v43 (F := Ideal) x9 (ix2 r k) = x9 (ix1 k) := by
  rw [val_main_v43_apply, val_main_v42_apply]
  exact congrArg x9 (funext fun a => by match a with | ⟨0, _⟩ => rfl)

theorem v49_at (r : Fin 65536) (q : Fin 128) : val_main_v49 (F := Ideal) x11 (ix2 r q) = x11 (ix1 q) := by
  rw [val_main_v49_apply, val_main_v48_apply]
  exact congrArg x11 (funext fun a => by match a with | ⟨0, _⟩ => rfl)

/-- At `(r, q)` it is the field of row `r` of `Y`, component `q`. -/
theorem fodeR_apply (Y : FVec Ideal S65536x128 .f32) (r : Fin 65536) (q : Fin 128) :
    fodeR Y x8 x9 x10 x11 (ix2 r q) = rowField x8 x9 x10 x11 (fun l => Y (ix2 r l)) q := by
  unfold fodeR
  rw [addf_apply, dot_out_apply, v49_at]
  refine congrArg₂ (· + ·) (Finset.sum_congr rfl fun k _ => congrArg₂ (· * ·) ?_ (v46_at x10 k q)) rfl
  show Ideal.tanh ((Host.dotGeneral dot_S65536x128_S128x64_S65536x64_1_0_0_1_n_n none Y (val_main_v40 (F := Ideal) x8)) (ix2 r k)
      + val_main_v43 (F := Ideal) x9 (ix2 r k)) = _
  rw [dot_in_apply, v43_at]
  simp only [v40_at]

/-- Each stage of the scheme is the field of the stage's argument. -/
theorem v50_eq : val_main_v50 (F := Ideal) x0 x1 x2 x4 x5 x6 x7 x8 x9 x10 x11 = fodeR (val_main_v38 (F := Ideal) x0 x1 x2 x4 x5 x6 x7) x8 x9 x10 x11 := by
  unfold val_main_v50 val_main_v47 val_main_v45 val_main_v44 val_main_v41 fodeR
  rfl
theorem v66_eq : val_main_v66 (F := Ideal) x0 x1 x2 x3 x4 x5 x6 x7 x8 x9 x10 x11 = fodeR (val_main_v55 (F := Ideal) x0 x1 x2 x3 x4 x5 x6 x7 x8 x9 x10 x11) x8 x9 x10 x11 := by
  unfold val_main_v66 val_main_v63 val_main_v61 val_main_v60 val_main_v57 fodeR val_main_v65 val_main_v64 val_main_v49 val_main_v48 val_main_v62 val_main_v46 val_main_v59 val_main_v58 val_main_v43 val_main_v42 val_main_v56 val_main_v40
  rfl
theorem v83_eq : val_main_v83 (F := Ideal) x0 x1 x2 x3 x4 x5 x6 x7 x8 x9 x10 x11 = fodeR (val_main_v72 (F := Ideal) x0 x1 x2 x3 x4 x5 x6 x7 x8 x9 x10 x11) x8 x9 x10 x11 := by
  unfold val_main_v83 val_main_v80 val_main_v78 val_main_v77 val_main_v74 fodeR val_main_v82 val_main_v81 val_main_v49 val_main_v48 val_main_v79 val_main_v46 val_main_v76 val_main_v75 val_main_v43 val_main_v42 val_main_v73 val_main_v40
  rfl
theorem v99_eq : val_main_v99 (F := Ideal) x0 x1 x2 x3 x4 x5 x6 x7 x8 x9 x10 x11 = fodeR (val_main_v88 (F := Ideal) x0 x1 x2 x3 x4 x5 x6 x7 x8 x9 x10 x11) x8 x9 x10 x11 := by
  unfold val_main_v99 val_main_v96 val_main_v94 val_main_v93 val_main_v90 fodeR val_main_v98 val_main_v97 val_main_v49 val_main_v48 val_main_v95 val_main_v46 val_main_v92 val_main_v91 val_main_v43 val_main_v42 val_main_v89 val_main_v40
  rfl

/-! ## The Runge–Kutta stages -/

/-- The time span of row `r`, broadcast along the row. -/
theorem dt_at (r : Fin 65536) (l : Fin 128) :
    broadcastInDim S65536x128 ![0, 1] bcast_S65536x1_S65536x128_0_1 (val_main_v39 (F := Ideal) x3) (ix2 r l) = x3 (ix1 r) := by
  unfold val_main_v39
  rw [ColumnLayout.bcast_rows_apply, ColumnLayout.bcast_col_apply]

/-- The argument of the second stage. -/
theorem v55_at (r : Fin 65536) (l : Fin 128) :
    val_main_v55 (F := Ideal) x0 x1 x2 x3 x4 x5 x6 x7 x8 x9 x10 x11 (ix2 r l) = stage2 (fun l => val_main_v38 (F := Ideal) x0 x1 x2 x4 x5 x6 x7 (ix2 r l)) (fun l => val_main_v50 (F := Ideal) x0 x1 x2 x4 x5 x6 x7 x8 x9 x10 x11 (ix2 r l)) (x3 (ix1 r)) l := by
  show val_main_v38 (F := Ideal) x0 x1 x2 x4 x5 x6 x7 (ix2 r l) + broadcastInDim S65536x128 ![0, 1] bcast_S65536x1_S65536x128_0_1 (val_main_v39 (F := Ideal) x3) (ix2 r l)
      * (val_main_v50 (F := Ideal) x0 x1 x2 x4 x5 x6 x7 x8 x9 x10 x11 (ix2 r l) * val_main_v51 (F := Ideal) (ix2 r l)) = _
  rw [dt_at, val_main_v51_apply]
  rfl

/-- The argument of the third stage. -/
theorem v72_at (r : Fin 65536) (l : Fin 128) :
    val_main_v72 (F := Ideal) x0 x1 x2 x3 x4 x5 x6 x7 x8 x9 x10 x11 (ix2 r l) = stage3 (fun l => val_main_v38 (F := Ideal) x0 x1 x2 x4 x5 x6 x7 (ix2 r l)) (fun l => val_main_v50 (F := Ideal) x0 x1 x2 x4 x5 x6 x7 x8 x9 x10 x11 (ix2 r l)) (fun l => val_main_v66 (F := Ideal) x0 x1 x2 x3 x4 x5 x6 x7 x8 x9 x10 x11 (ix2 r l)) (x3 (ix1 r)) l := by
  show val_main_v38 (F := Ideal) x0 x1 x2 x4 x5 x6 x7 (ix2 r l) + broadcastInDim S65536x128 ![0, 1] bcast_S65536x1_S65536x128_0_1 (val_main_v39 (F := Ideal) x3) (ix2 r l)
      * (val_main_v66 (F := Ideal) x0 x1 x2 x3 x4 x5 x6 x7 x8 x9 x10 x11 (ix2 r l) - val_main_v50 (F := Ideal) x0 x1 x2 x4 x5 x6 x7 x8 x9 x10 x11 (ix2 r l) * val_main_v67 (F := Ideal) (ix2 r l)) = _
  rw [dt_at, val_main_v67_apply]
  rfl

/-- The argument of the fourth stage. -/
theorem v88_at (r : Fin 65536) (l : Fin 128) :
    val_main_v88 (F := Ideal) x0 x1 x2 x3 x4 x5 x6 x7 x8 x9 x10 x11 (ix2 r l) = val_main_v38 (F := Ideal) x0 x1 x2 x4 x5 x6 x7 (ix2 r l) + (x3 (ix1 r)) * (val_main_v50 (F := Ideal) x0 x1 x2 x4 x5 x6 x7 x8 x9 x10 x11 (ix2 r l) - val_main_v66 (F := Ideal) x0 x1 x2 x3 x4 x5 x6 x7 x8 x9 x10 x11 (ix2 r l) + val_main_v83 (F := Ideal) x0 x1 x2 x3 x4 x5 x6 x7 x8 x9 x10 x11 (ix2 r l)) := by
  show val_main_v38 (F := Ideal) x0 x1 x2 x4 x5 x6 x7 (ix2 r l) + broadcastInDim S65536x128 ![0, 1] bcast_S65536x1_S65536x128_0_1 (val_main_v39 (F := Ideal) x3) (ix2 r l)
      * (val_main_v50 (F := Ideal) x0 x1 x2 x4 x5 x6 x7 x8 x9 x10 x11 (ix2 r l) - val_main_v66 (F := Ideal) x0 x1 x2 x3 x4 x5 x6 x7 x8 x9 x10 x11 (ix2 r l) + val_main_v83 (F := Ideal) x0 x1 x2 x3 x4 x5 x6 x7 x8 x9 x10 x11 (ix2 r l)) = _
  rw [dt_at]

/-- The last two stages and the combination at `(r, q)`. -/
theorem v111_at (r : Fin 65536) (q : Fin 128) :
    val_main_v111 (F := Ideal) x0 x1 x2 x3 x4 x5 x6 x7 x8 x9 x10 x11 (ix2 r q)
      = rkTail (rowField x8 x9 x10 x11) (fun l => val_main_v38 (F := Ideal) x0 x1 x2 x4 x5 x6 x7 (ix2 r l)) (fun l => val_main_v50 (F := Ideal) x0 x1 x2 x4 x5 x6 x7 x8 x9 x10 x11 (ix2 r l)) (fun l => val_main_v66 (F := Ideal) x0 x1 x2 x3 x4 x5 x6 x7 x8 x9 x10 x11 (ix2 r l))
          (fun l => val_main_v72 (F := Ideal) x0 x1 x2 x3 x4 x5 x6 x7 x8 x9 x10 x11 (ix2 r l)) (x3 (ix1 r)) q := by
  have hy : (fun l : Fin 128 => val_main_v88 (F := Ideal) x0 x1 x2 x3 x4 x5 x6 x7 x8 x9 x10 x11 (ix2 r l))
      = fun l => val_main_v38 (F := Ideal) x0 x1 x2 x4 x5 x6 x7 (ix2 r l) + (x3 (ix1 r)) * (val_main_v50 (F := Ideal) x0 x1 x2 x4 x5 x6 x7 x8 x9 x10 x11 (ix2 r l) - val_main_v66 (F := Ideal) x0 x1 x2 x3 x4 x5 x6 x7 x8 x9 x10 x11 (ix2 r l)
          + (rowField x8 x9 x10 x11) (fun l => val_main_v72 (F := Ideal) x0 x1 x2 x3 x4 x5 x6 x7 x8 x9 x10 x11 (ix2 r l)) l) := by
    funext l
    rw [v88_at, v83_eq, fodeR_apply]
  show val_main_v38 (F := Ideal) x0 x1 x2 x4 x5 x6 x7 (ix2 r q) + broadcastInDim S65536x128 ![0, 1] bcast_S65536x1_S65536x128_0_1 (val_main_v39 (F := Ideal) x3) (ix2 r q)
      * (val_main_v50 (F := Ideal) x0 x1 x2 x4 x5 x6 x7 x8 x9 x10 x11 (ix2 r q) + val_main_v100 (F := Ideal) (ix2 r q) * val_main_v66 (F := Ideal) x0 x1 x2 x3 x4 x5 x6 x7 x8 x9 x10 x11 (ix2 r q)
        + val_main_v103 (F := Ideal) (ix2 r q) * val_main_v83 (F := Ideal) x0 x1 x2 x3 x4 x5 x6 x7 x8 x9 x10 x11 (ix2 r q) + val_main_v99 (F := Ideal) x0 x1 x2 x3 x4 x5 x6 x7 x8 x9 x10 x11 (ix2 r q))
      * val_main_v109 (F := Ideal) (ix2 r q) = _
  rw [dt_at, val_main_v100_apply, val_main_v103_apply, val_main_v109_apply, v83_eq, v99_eq, fodeR_apply, fodeR_apply, hy]
  rfl

/-! ## The two results -/

/-- The cell-state result is the array of Proof/Result.lean. -/
theorem ref_c : val_main_v30 (F := Ideal) x0 x1 x2 x4 x5 x6 x7 = resC x0 x1 x2 x4 x5 x6 x7 := by
  funext i
  obtain ⟨r, q, rfl⟩ : ∃ (r : Fin 65536) (q : Fin 128), i = ix2 r q := ⟨i 0, i 1, eq_ix2 i⟩
  rw [c_at]
  exact (rowC_eq_split x0 x1 x2 x4 x5 x6 x7 r q).symm

/-- The hidden-state result is the array of Proof/Result.lean. -/
theorem ref_h : val_main_v111 (F := Ideal) x0 x1 x2 x3 x4 x5 x6 x7 x8 x9 x10 x11 = resH x0 x1 x2 x3 x4 x5 x6 x7 x8 x9 x10 x11 := by
  funext i
  obtain ⟨r, q, rfl⟩ : ∃ (r : Fin 65536) (q : Fin 128), i = ix2 r q := ⟨i 0, i 1, eq_ix2 i⟩
  have r38 : (fun l : Fin 128 => val_main_v38 (F := Ideal) x0 x1 x2 x4 x5 x6 x7 (ix2 r l)) = cellH sigE (rowGatesSplit x0 x1 x4 x5 x6 x7 r) (fun l => x2 (ix2 r l)) :=
    funext fun l => h_at x0 x1 x2 x4 x5 x6 x7 r l
  have r50 : (fun l : Fin 128 => val_main_v50 (F := Ideal) x0 x1 x2 x4 x5 x6 x7 x8 x9 x10 x11 (ix2 r l)) = (rowField x8 x9 x10 x11) (cellH sigE (rowGatesSplit x0 x1 x4 x5 x6 x7 r) (fun l => x2 (ix2 r l))) := by
    funext l
    rw [v50_eq, fodeR_apply, r38]
  have r66 : (fun l : Fin 128 => val_main_v66 (F := Ideal) x0 x1 x2 x3 x4 x5 x6 x7 x8 x9 x10 x11 (ix2 r l)) = (rowField x8 x9 x10 x11) (stage2 (cellH sigE (rowGatesSplit x0 x1 x4 x5 x6 x7 r) (fun l => x2 (ix2 r l))) ((rowField x8 x9 x10 x11) (cellH sigE (rowGatesSplit x0 x1 x4 x5 x6 x7 r) (fun l => x2 (ix2 r l)))) (x3 (ix1 r))) := by
    funext l
    rw [v66_eq, fodeR_apply]
    refine congrArg (fun y => (rowField x8 x9 x10 x11) y l) (funext fun l' => ?_)
    rw [v55_at, r38, r50]
  have r72 : (fun l : Fin 128 => val_main_v72 (F := Ideal) x0 x1 x2 x3 x4 x5 x6 x7 x8 x9 x10 x11 (ix2 r l))
      = stage3 (cellH sigE (rowGatesSplit x0 x1 x4 x5 x6 x7 r) (fun l => x2 (ix2 r l))) ((rowField x8 x9 x10 x11) (cellH sigE (rowGatesSplit x0 x1 x4 x5 x6 x7 r) (fun l => x2 (ix2 r l)))) ((rowField x8 x9 x10 x11) (stage2 (cellH sigE (rowGatesSplit x0 x1 x4 x5 x6 x7 r) (fun l => x2 (ix2 r l))) ((rowField x8 x9 x10 x11) (cellH sigE (rowGatesSplit x0 x1 x4 x5 x6 x7 r) (fun l => x2 (ix2 r l)))) (x3 (ix1 r)))) (x3 (ix1 r)) := by
    funext l
    rw [v72_at, r38, r50, r66]
  rw [v111_at, r38, r50, r66, r72]
  exact (rowH_eq_split x0 x1 x2 x3 x4 x5 x6 x7 x8 x9 x10 x11 r q).symm

end Cert.ReferenceIdeal.Rows

end
-- ==== Proof.lean ====
/-
  The claim for the ODE-LSTM cell kernel: a batched LSTM cell whose new hidden state is moved by one step of the
  3/8-rule Runge–Kutta scheme for a two-layer field, 65536 independent rows, computed block of 2048 rows by block by
  the kernel and on all rows at once by the reference.

  At the ideal values both programs compute the same two arrays (Proof/Result.lean), entry `(r, q)` being a function
  of row `r` of the inputs and of the weights (Proof/Spec.lean). The kernel's body gives each row of a block
  (Proof/KRow.lean) and its 32 blocks cover the arrays (Proof/KArray.lean); the reference's stages give each row of the
  whole arrays (Proof/RGates.lean, Proof/RStep.lean). Two laws join the spellings: the logistic function through the hyperbolic tangent
  and through the exponential agree on every extended real, and the gate pre-activations as one contraction of
  [x | h0] with [W_ih | W_hh] are the two separate contractions with their biases, by commutativity and associativity
  of the addition of extended reals. Neither law needs the inputs to be finite, so the precondition is not used.
  The kernel's idealization rewrote nothing, and the three frames are the generated runs.
-/
import proofs.«114038_j40458591928886_2_alg».proof.Defs
import proofs.«114038_j40458591928886_2_alg».proof.Proof.Gen.Kernel
import proofs.«114038_j40458591928886_2_alg».proof.Proof.Gen.Kernel.Skeleton
import proofs.«114038_j40458591928886_2_alg».proof.Proof.Gen.Kernel.Launch
import proofs.«114038_j40458591928886_2_alg».proof.Proof.Gen.Kernel.Points
import proofs.«114038_j40458591928886_2_alg».proof.Proof.Gen.Kernel.Frame
import proofs.«114038_j40458591928886_2_alg».proof.Proof.Gen.KernelIdeal
import proofs.«114038_j40458591928886_2_alg».proof.Proof.Gen.KernelIdeal.Skeleton
import proofs.«114038_j40458591928886_2_alg».proof.Proof.Gen.KernelIdeal.Launch
import proofs.«114038_j40458591928886_2_alg».proof.Proof.Gen.KernelIdeal.Points
import proofs.«114038_j40458591928886_2_alg».proof.Proof.Gen.KernelIdeal.Frame
import proofs.«114038_j40458591928886_2_alg».proof.Proof.Gen.ReferenceIdeal
import proofs.«114038_j40458591928886_2_alg».proof.Proof.Gen.Pre_finite_inputs
import proofs.«114038_j40458591928886_2_alg».proof.Proof.Gen.KernelIdeal.Value
import proofs.«114038_j40458591928886_2_alg».proof.Proof.Gen.ReferenceIdeal.Run
import proofs.«114038_j40458591928886_2_alg».proof.Proof.Gen.ReferenceIdeal.Read
import proofs.«114038_j40458591928886_2_alg».proof.Proof.KArray
import proofs.«114038_j40458591928886_2_alg».proof.Proof.RStep
import Idealize.ShloMosaic.Adequacy
import Idealize.ShloMosaic.Init

noncomputable section

namespace Cert.Proof

open Idealize.ShloMosaic Idealize.ShloMosaic.TcCoe Idealize.SL.Sem Cert.OdeLstm

/-- The kernel as printed runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the hidden-state and cell-state arrays of Proof/Result.lean of the arguments: the kernel by
    its blocks, the reference stage by stage, the arguments agreeing. -/
theorem algebraic : Cert.algebraic_KernelIdeal_ReferenceIdeal := by
  intro m ρ m' ρ' _ hagree
  refine ⟨_, _, Cert.KernelIdeal.Rows.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11⟩ := hagree c
    rw [Cert.ReferenceIdeal.Read.val_main_v111_eq, Cert.ReferenceIdeal.Rows.ref_h, e0, e1, e2, e3, e4, e5, e6, e7, e8, e9, e10, e11]
  · obtain ⟨e0, e1, e2, e3, e4, e5, e6, e7, e8, e9, e10, e11⟩ := hagree c
    rw [Cert.ReferenceIdeal.Read.val_main_v30_eq, Cert.ReferenceIdeal.Rows.ref_c, e0, e1, e2, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
